-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1433 : Shape := ⟨2, ![100000, 1433]⟩
abbrev S1433x16 : Shape := ⟨2, ![1433, 16]⟩
abbrev S16 : Shape := ⟨1, ![16]⟩
abbrev S16x16 : Shape := ⟨2, ![16, 16]⟩
abbrev S16x7 : Shape := ⟨2, ![16, 7]⟩
abbrev S7 : Shape := ⟨1, ![7]⟩
abbrev S2x3200000 : Shape := ⟨2, ![2, 3200000]⟩
abbrev S_ : Shape := ⟨0, ![]⟩

class Facts : Prop where
  bcast_S_S100000x1433 : S_.BroadcastsInDim S100000x1433 (![] : Fin 0 → Fin S100000x1433.rank)
  reducesTo_S100000x1433_S_d0_1 : S100000x1433.ReducesTo [0, 1] S_
  h_S_ : 0 < S_.numel
  bcast_S_S1433x16 : S_.BroadcastsInDim S1433x16 (![] : Fin 0 → Fin S1433x16.rank)
  reducesTo_S1433x16_S_d0_1 : S1433x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S16 .f32) (main_arg5 : FVec F S16x7 .f32) (main_arg6 : FVec F S7 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x7 .f32 := Host.absf main_arg5
  let main_cst_8 : FVec F S_ .f32 := constant S_ .f32 0x7F800000#32
  let main_v25 : FVec F S16x7 .f32 := broadcastInDim S16x7 ![] bcast_S_S16x7 main_cst_8
  let main_v26 : IVec S16x7 1 := cmpf .olt main_v24 main_v25
  let main_c_9 : IVec S_ 1 := constantI S_ 1 1#1
  let main_v27 : IVec S_ 1 := (fun x v => Host.reduce IntOp.andi x v reducesTo_S16x7_S_d0_1 h_S_) main_v26 main_c_9
  let main_v28 : IVec S_ 1 := andi main_v23 main_v27
  let main_v29 : FVec F S7 .f32 := Host.absf main_arg6
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  main_v33

def fn {F : FTy → Type} [FloatOps F] (main_arg0 : FVec F S100000x1433 .f32) (main_arg1 : FVec F S1433x16 .f32) (main_arg2 : FVec F S16 .f32) (main_arg3 : FVec F S16x16 .f32) (main_arg4 : FVec F S16 .f32) (main_arg5 : FVec F S16x7 .f32) (main_arg6 : FVec F S7 .f32) (main_arg7 : IVec S2x3200000 32) : IVec S_ 1 :=
  let main_v0 : FVec F S100000x1433 .f32 := Host.absf main_arg0
  let main_cst : FVec F S_ .f32 := constant S_ .f32 0x7F800000#32
  let main_v1 : FVec F S100000x1433 .f32 := broadcastInDim S100000x1433 ![] bcast_S_S100000x1433 main_cst
  let main_v2 : IVec S100000x1433 1 := cmpf .olt main_v0 main_v1
  let main_c : IVec S_ 1 := constantI S_ 1 1#1
  let main_v3 : IVec S_ 1 := (fun x v => Host.reduce IntOp.andi x v reducesTo_S100000x1433_S_d0_1 h_S_) main_v2 main_c
  let main_v4 : FVec F S1433x16 .f32 := Host.absf main_arg1
  let main_cst_0 : FVec F S_ .f32 := constant S_ .f32 0x7F800000#32
  let main_v5 : FVec F S1433x16 .f32 := broadcastInDim S1433x16 ![] bcast_S_S1433x16 main_cst_0
  let main_v6 : IVec S1433x16 1 := cmpf .olt main_v4 main_v5
  let main_c_1 : IVec S_ 1 := constantI S_ 1 1#1
  let main_v7 : IVec S_ 1 := (fun x v => Host.reduce IntOp.andi x v reducesTo_S1433x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_arg5 main_arg6 main_v13 main_v16
-- ==== Kernel.lean ====
abbrev S100000x1433 : Shape := ⟨2, ![100000, 1433]⟩
abbrev S1433x16 : Shape := ⟨2, ![1433, 16]⟩
abbrev S16 : Shape := ⟨1, ![16]⟩
abbrev S16x16 : Shape := ⟨2, ![16, 16]⟩
abbrev S16x7 : Shape := ⟨2, ![16, 7]⟩
abbrev S7 : Shape := ⟨1, ![7]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x1433 : Shape := ⟨2, ![2000, 1433]⟩
abbrev S2000x16 : Shape := ⟨2, ![2000, 16]⟩
abbrev S3300000x16 : Shape := ⟨2, ![3300000, 16]⟩
abbrev S1x16 : Shape := ⟨2, ![1, 16]⟩
abbrev S100000x7 : Shape := ⟨2, ![100000, 7]⟩
abbrev S2000x7 : Shape := ⟨2, ![2000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 129
  | .vmem => 15
  | .smem => 0
  | _ => 0

abbrev hbmTy0_0 (i : Nat) : BufTy := match i % 128 with
  | 0 => ⟨S100000x1433, .f32⟩
  | 1 => ⟨S1433x16, .f32⟩
  | 2 => ⟨S16, .f32⟩
  | 3 => ⟨S16x16, .f32⟩
  | 4 => ⟨S16, .f32⟩
  | 5 => ⟨S16x7, .f32⟩
  | 6 => ⟨S7, .f32⟩
  | 7 => ⟨S2x3200000, .i32⟩
  | 8 => ⟨S100000, .i32⟩
  | 9 => ⟨S1x3200000, .i32⟩
  | 10 => ⟨S3200000, .i32⟩
  | 11 => ⟨S3300000, .i32⟩
  | 12 => ⟨S1x3200000, .i32⟩
  | 13 => ⟨S3200000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S100000x16, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x16, .f32⟩
  | 58 => ⟨S3300000x1, .f32⟩
  | 59 => ⟨S3300000x16, .f32⟩
  | 60 => ⟨S3300000x16, .f32⟩
  | 61 => ⟨S_, .f32⟩
  | 62 => ⟨S100000x16, .f32⟩
  | 63 => ⟨S3300000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000x16, .f32⟩
  | 72 => ⟨S_, .i32⟩
  | 73 => ⟨S3300000, .i32⟩
  | 74 => ⟨S3300000, .i1⟩
  | 75 => ⟨S_, .i32⟩
  | 76 => ⟨S3300000, .i32⟩
  | 77 => ⟨S3300000, .i32⟩
  | 78 => ⟨S3300000, .i32⟩
  | 79 => ⟨S3300000x1, .i32⟩
  | 80 => ⟨S3300000x16, .f32⟩
  | 81 => ⟨S3300000x1, .f32⟩
  | 82 => ⟨S3300000x16, .f32⟩
  | 83 => ⟨S3300000x16, .f32⟩
  | 84 => ⟨S_, .f32⟩
  | 85 => ⟨S100000x16, .f32⟩
  | 86 => ⟨S3300000x1, .i32⟩
  | 87 => ⟨S100000x16, .f32⟩
  | 88 => ⟨S1x16, .f32⟩
  | 89 => ⟨S100000x16, .f32⟩
  | 90 => ⟨S100000x16, .f32⟩
  | 91 => ⟨S_, .f32⟩
  | 92 => ⟨S100000x16, .f32⟩
  | 93 => ⟨S100000x16, .f32⟩
  | 94 => ⟨S100000x7, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000x7, .f32⟩
  | 104 => ⟨S3300000x1, .f32⟩
  | 105 => ⟨S3300000x7, .f32⟩
  | 106 => ⟨S3300000x7, .f32⟩
  | 107 => ⟨S_, .f32⟩
  | 108 => ⟨S100000x7, .f32⟩
  | 109 => ⟨S3300000x1, .i32⟩
  | 110 => ⟨S100000x7, .f32⟩
  | 111 => ⟨S1x7, .f32⟩
  | 112 => ⟨S100000x7, .f32⟩
  | 113 => ⟨S100000x7, .f32⟩
  | 114 => ⟨S_, .f32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x7, .f32⟩
  | 121 => ⟨S100000x7, .f32⟩
  | 122 => ⟨S100000x7, .f32⟩
  | 123 => ⟨S_, .f32⟩
  | 124 => ⟨S100000, .f32⟩
  | 125 => ⟨S100000x1, .f32⟩
  | 126 => ⟨S100000x1, .f32⟩
  | 127 => ⟨S100000x7, .f32⟩
  | _ => ⟨S100000x1433, .f32⟩

abbrev hbmTy0_1 (i : Nat) : BufTy := match i % 128 with
  | 0 => ⟨S100000x7, .f32⟩
  | _ => ⟨S100000x1433, .f32⟩

abbrev hbmTy (i : Nat) : BufTy := match i / 128 with
  | 0 => hbmTy0_0 i
  | 1 => hbmTy0_1 i
  | _ => ⟨S100000x1433, .f32⟩

abbrev bufTy : (tb : Table) → Fin (tcTables nBuf tb) → BufTy
  | .hbm, ⟨i, _⟩ => hbmTy i
  | .local _ .vmem, ⟨0, _⟩ => ⟨S2000x1433, .f32⟩
  | .local _ .vmem, ⟨1, _⟩ => ⟨S2000x1433, .f32⟩
  | .local _ .vmem, ⟨2, _⟩ => ⟨S1433x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S16x16, .f32⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S16x7, .f32⟩
  | .local _ .vmem, ⟨13, _⟩ => ⟨S2000x7, .f32⟩
  | .local _ .vmem, ⟨14, _⟩ => ⟨S2000x7, .f32⟩
  | _, _ => ⟨S100000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call2_cst : Ref sig .tc := ⟨.hbm, 68, rfl⟩
abbrev main_call2_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call4_cst : Ref sig .tc := ⟨.hbm, 91, rfl⟩
abbrev main_call4_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call6_cst : Ref sig .tc := ⟨.hbm, 114, rfl⟩
abbrev main_call6_v0 : Ref sig .tc := ⟨.hbm, 115, rfl⟩
abbrev main_call6_cst_0 : Ref sig .tc := ⟨.hbm, 116, rfl⟩
abbrev main_call6_v1 : Ref sig .tc := ⟨.hbm, 117, rfl⟩
abbrev main_call6_v2 : Ref sig .tc := ⟨.hbm, 118, rfl⟩
abbrev main_call6_v3 : Ref sig .tc := ⟨.hbm, 119, rfl⟩
abbrev main_call6_v4 : Ref sig .tc := ⟨.hbm, 120, rfl⟩
abbrev main_call6_v5 : Ref sig .tc := ⟨.hbm, 121, rfl⟩
abbrev main_call6_v6 : Ref sig .tc := ⟨.hbm, 122, rfl⟩
abbrev main_call6_cst_1 : Ref sig .tc := ⟨.hbm, 123, rfl⟩
abbrev main_call6_v7 : Ref sig .tc := ⟨.hbm, 124, rfl⟩
abbrev main_call6_v8 : Ref sig .tc := ⟨.hbm, 125, rfl⟩
abbrev main_call6_v9 : Ref sig .tc := ⟨.hbm, 126, rfl⟩
abbrev main_call6_v10 : Ref sig .tc := ⟨.hbm, 127, rfl⟩
abbrev main_v83 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x1433_S2000x1433_0_0 : ∀ a, (![0, 0] : Fin 2 → Nat) a + S2000x1433.size a ≤ S2000x1433.size a
  h_S2000x1433 : 0 < S2000x1433.numel
  bitsLt_bf16_f32 : FTy.bits .bf16 < FTy.bits .f32
  inb_S1433x16_S1433x16_0_0 : ∀ a, (![0, 0] : Fin 2 → Nat) a + S1433x16.size a ≤ S1433x16.size a
  h_S1433x16 : 0 < S1433x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S2000x16_S2000x16 : S2000x16.ShapeCasts S2000x16
  inb_S16x16_S16x16_0_0 : ∀ a, (![0, 0] : Fin 2 → Nat) a + S16x16.size a ≤ S16x16.size a
  h_S16x16 : 0 < S16x16.numel
  inb_S16x7_S16x7_0_0 : ∀ a, (![0, 0] : Fin 2 → Nat) a + S16x7.size a ≤ S16x7.size a
  h_S16x7 : 0 < S16x7.numel
  inb_S2000x7_S2000x7_0_0 : ∀ a, (![0, 0] : Fin 2 → Nat) a + S2000x7.size a ≤ S2000x7.size a
  h_S2000x7 : 0 < S2000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x1433_S1433x16_S2000x16_1_0_0_1_n_n_wf : DotDims.WF S2000x1433 S1433x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x16_S2000x16_1_0_0_1_n_n_wf : DotDims.WF S2000x16 S16x16 S2000x16 [1] [0] [0] [1] [] []
  dot_S2000x16_S16x7_S2000x7_1_0_0_1_n_n_wf : DotDims.WF S2000x16 S16x7 S2000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S100000x1433.size a
  hwx0_0 : ∀ i : grid0.Coords, EltTy.bits .f32 = 32 ∨ (Rect.block (s := S100000x1433) S2000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x16.size a ≤ S1433x16.size a
  hwx0_1 : ∀ i : grid0.Coords, EltTy.bits .f32 = 32 ∨ (Rect.block (s := S1433x16) S1433x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x16.size a ≤ S16x16.size a
  hwx1_1 : ∀ i : grid1.Coords, EltTy.bits .f32 = 32 ∨ (Rect.block (s := S16x16) S16x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x7.size a ≤ S16x7.size a
  hwx2_1 : ∀ i : grid2.Coords, EltTy.bits .f32 = 32 ∨ (Rect.block (s := S16x7) S16x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x7.size a ≤ S100000x7.size a
  hwx2_2 : ∀ i : grid2.Coords, EltTy.bits .f32 = 32 ∨ (Rect.block (s := S100000x7) S2000x7.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x1433_S1433x16_S2000x16_1_0_0_1_n_n : DotDims S2000x1433 S1433x16 S2000x16 where
  lhsContracting := [1]
  rhsContracting := [0]
  lhsNonContracting := [0]
  rhsNonContracting := [1]
  lhsBatch := []
  rhsBatch := []
  wf := dot_S2000x1433_S1433x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x16_S2000x16_1_0_0_1_n_n : DotDims S2000x16 S16x16 S2000x16 where
  lhsContracting := [1]
  rhsContracting := [0]
  lhsNonContracting := [0]
  rhsNonContracting := [1]
  lhsBatch := []
  rhsBatch := []
  wf := dot_S2000x16_S16x16_S2000x16_1_0_0_1_n_n_wf
def dot_S2000x16_S16x7_S2000x7_1_0_0_1_n_n : DotDims S2000x16 S16x7 S2000x7 where
  lhsContracting := [1]
  rhsContracting := [0]
  lhsNonContracting := [0]
  rhsNonContracting := [1]
  lhsBatch := []
  rhsBatch := []
  wf := dot_S2000x16_S16x7_S2000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1433x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S2000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x1433 : Shape := ⟨2, ![100000, 1433]⟩
abbrev S1433x16 : Shape := ⟨2, ![1433, 16]⟩
abbrev S16 : Shape := ⟨1, ![16]⟩
abbrev S16x16 : Shape := ⟨2, ![16, 16]⟩
abbrev S16x7 : Shape := ⟨2, ![16, 7]⟩
abbrev S7 : Shape := ⟨1, ![7]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 129
  | .vmem => 0
  | .smem => 0
  | _ => 0

abbrev hbmTy0_0 (i : Nat) : BufTy := match i % 128 with
  | 0 => ⟨S100000x1433, .f32⟩
  | 1 => ⟨S1433x16, .f32⟩
  | 2 => ⟨S16, .f32⟩
  | 3 => ⟨S16x16, .f32⟩
  | 4 => ⟨S16, .f32⟩
  | 5 => ⟨S16x7, .f32⟩
  | 6 => ⟨S7, .f32⟩
  | 7 => ⟨S2x3200000, .i32⟩
  | 8 => ⟨S100000, .i32⟩
  | 9 => ⟨S1x3200000, .i32⟩
  | 10 => ⟨S3200000, .i32⟩
  | 11 => ⟨S3300000, .i32⟩
  | 12 => ⟨S1x3200000, .i32⟩
  | 13 => ⟨S3200000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S100000x16, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x16, .f32⟩
  | 58 => ⟨S3300000x1, .f32⟩
  | 59 => ⟨S3300000x16, .f32⟩
  | 60 => ⟨S3300000x16, .f32⟩
  | 61 => ⟨S_, .f32⟩
  | 62 => ⟨S100000x16, .f32⟩
  | 63 => ⟨S3300000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000x16, .f32⟩
  | 72 => ⟨S_, .i32⟩
  | 73 => ⟨S3300000, .i32⟩
  | 74 => ⟨S3300000, .i1⟩
  | 75 => ⟨S_, .i32⟩
  | 76 => ⟨S3300000, .i32⟩
  | 77 => ⟨S3300000, .i32⟩
  | 78 => ⟨S3300000, .i32⟩
  | 79 => ⟨S3300000x1, .i32⟩
  | 80 => ⟨S3300000x16, .f32⟩
  | 81 => ⟨S3300000x1, .f32⟩
  | 82 => ⟨S3300000x16, .f32⟩
  | 83 => ⟨S3300000x16, .f32⟩
  | 84 => ⟨S_, .f32⟩
  | 85 => ⟨S100000x16, .f32⟩
  | 86 => ⟨S3300000x1, .i32⟩
  | 87 => ⟨S100000x16, .f32⟩
  | 88 => ⟨S1x16, .f32⟩
  | 89 => ⟨S100000x16, .f32⟩
  | 90 => ⟨S100000x16, .f32⟩
  | 91 => ⟨S_, .f32⟩
  | 92 => ⟨S100000x16, .f32⟩
  | 93 => ⟨S100000x16, .f32⟩
  | 94 => ⟨S100000x7, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000x7, .f32⟩
  | 104 => ⟨S3300000x1, .f32⟩
  | 105 => ⟨S3300000x7, .f32⟩
  | 106 => ⟨S3300000x7, .f32⟩
  | 107 => ⟨S_, .f32⟩
  | 108 => ⟨S100000x7, .f32⟩
  | 109 => ⟨S3300000x1, .i32⟩
  | 110 => ⟨S100000x7, .f32⟩
  | 111 => ⟨S1x7, .f32⟩
  | 112 => ⟨S100000x7, .f32⟩
  | 113 => ⟨S100000x7, .f32⟩
  | 114 => ⟨S_, .f32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x7, .f32⟩
  | 121 => ⟨S100000x7, .f32⟩
  | 122 => ⟨S100000x7, .f32⟩
  | 123 => ⟨S_, .f32⟩
  | 124 => ⟨S100000, .f32⟩
  | 125 => ⟨S100000x1, .f32⟩
  | 126 => ⟨S100000x1, .f32⟩
  | 127 => ⟨S100000x7, .f32⟩
  | _ => ⟨S100000x1433, .f32⟩

abbrev hbmTy0_1 (i : Nat) : BufTy := match i % 128 with
  | 0 => ⟨S100000x7, .f32⟩
  | _ => ⟨S100000x1433, .f32⟩

abbrev hbmTy (i : Nat) : BufTy := match i / 128 with
  | 0 => hbmTy0_0 i
  | 1 => hbmTy0_1 i
  | _ => ⟨S100000x1433, .f32⟩

abbrev bufTy : (tb : Table) → Fin (tcTables nBuf tb) → BufTy
  | .hbm, ⟨i, _⟩ => hbmTy i
  | _, _ => ⟨S100000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call3_cst : Ref sig .tc := ⟨.hbm, 114, rfl⟩
abbrev main_call3_v0 : Ref sig .tc := ⟨.hbm, 115, rfl⟩
abbrev main_call3_cst_0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_cst_1 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_v83 : Ref sig .tc := ⟨.hbm, 128, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x1433_S1433x16_S100000x16_1_0_0_1_n_n_wf : DotDims.WF S100000x1433 S1433x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x1433_S1433x16_S100000x16_1_0_0_1_n_n : DotDims S100000x1433 S1433x16 S100000x16 where
  lhsContracting := [1]
  rhsContracting := [0]
  lhsNonContracting := [0]
  rhsNonContracting := [1]
  lhsBatch := []
  rhsBatch := []
  wf := dot_S100000x1433_S1433x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KernelRun.lean ====
/-
  The kernel program's run with its RESULT named. The program is twelve segments: stretches of host operations and
  three matrix-product regions between them. Every weakly fair execution from a memory with zero counters ends, nothing
  faulting, with the result buffer holding what the last boundary's contents hold there — the fold of the host
  stretches and of the three regions' write-backs over the launch memory — and with every argument array as launched.
  The argument is the frame's: the launch over the segments, the last thread state read against the final state; the
  one addition is that the result buffer, an unscoped buffer like the arguments, is read off too.
-/
import proofs.«178223_j10960756539504_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and the argument arrays end as launched. -/
theorem run_result : θ_run defs (onTc (τ := τ) (main (F := F))) ⟨m, fun _ => 0, ρ⟩ (fun r => ∀ c : Dev nD,
      r.2.mem ((c.tc : Thread nD τ).loc main_v83) = W12 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v83 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.RunV

end
-- ==== Proof.MatSpec.lean ====
/-
  The product of two matrices, entry by entry, on the extended reals: entry (p, q) of the product of an
  [N, K] array and a [K, M] array is the sum over k of x(p, k) · w(k, q). Each of the three linear layers
  of the network computes this function: the kernel one row block at a time, with its operands rounded to a
  narrower format on the way in (the identity on extended reals), the reference in one contraction.
-/
import Idealize.ShloMosaic.PureOps.Ideal
import Idealize.ShloMosaic.Lib.ValueIdx

noncomputable section

open scoped BigOperators

namespace Cert.Gcn

open Idealize.ShloMosaic Idealize.ShloMosaic.ValueIdx

/-- Entry (i₀, i₁) of the product: the sum over the shared coordinate. -/
def mm (N K M : Nat) (x : (⟨2, ![N, K]⟩ : Shape).Idx → EReal) (w : (⟨2, ![K, M]⟩ : Shape).Idx → EReal) :
    (⟨2, ![N, M]⟩ : Shape).Idx → EReal :=
  fun i => ∑ k : Fin K, x (ix2 (i 0) k) * w (ix2 k (i 1))

theorem mm_apply (N K M : Nat) (x : (⟨2, ![N, K]⟩ : Shape).Idx → EReal) (w : (⟨2, ![K, M]⟩ : Shape).Idx → EReal)
    (p : Fin N) (q : Fin M) : mm N K M x w (ix2 p q) = ∑ k : Fin K, x (ix2 p k) * w (ix2 k q) := rfl

end Cert.Gcn

end
-- ==== Proof.Spec.lean ====
/-
  The network both programs compute, as functions of arrays.

  The graph has 100000 nodes and 3200000 edges given as two rows of node numbers; a self loop is added at every node,
  so each list of edge ends has 3300000 entries: the given row followed by 0, 1, …, 99999 (`ends`). A node's degree is
  the number of listed edges ending at it (a scatter-add of ones, `degree`), its weight the reciprocal square root of
  the degree where the degree is positive and 0 elsewhere (`invSqrtDeg`), and an edge's coefficient the product of
  its two ends' weights (`edgeCoef`); a node number is read with the usual wrap of a negative number by the node
  count (`wrap`). One propagation step takes node features h, gathers the source node's row for every edge, scales
  it by the edge's coefficient, adds the rows up at the destination nodes and adds the bias (`propagate16`,
  `propagate7`). The network is: features times W1, propagate, positive part; times W2, propagate, positive part; times
  W3, propagate; then the logarithm of the row-wise softmax (`logSoftmax`). The three matrix products are the only
  steps the two programs spell differently; everything else is written here once, over the shapes and dimension
  records of the reference program, so that each program's run can be read against the same functions.
-/
import proofs.«178223_j10960756539504_1_alg».proof.ReferenceIdeal
import proofs.«178223_j10960756539504_1_alg».proof.Proof.Gen.ReferenceIdeal
import proofs.«178223_j10960756539504_1_alg».proof.Proof.MatSpec

noncomputable section

namespace Cert.Gcn

open Cert.ReferenceIdeal Cert.ReferenceIdeal.Gen Idealize.ShloMosaic Idealize.ShloMosaic.TcCoe

variable {F : FTy → Type} [FloatOps F]

/-- One row of the edge list followed by every node's own number: `row` is `![0, 0]` for the sources and `![1, 0]`
    for the destinations. -/
def srcEnds (e : (⟨S2x3200000, .i32⟩ : BufTy).Contents (Elt F)) : (⟨S3300000, .i32⟩ : BufTy).Contents (Elt F) :=
  concatenate S3300000 0
    [⟨S3200000, shapeCast S3200000 (extractStridedSlice S1x3200000 ![0, 0] e slices_S2x3200000_S1x3200000_0_0) shapeCasts_S1x3200000_S3200000⟩,
     ⟨S100000, iotaInDim S100000 32 0⟩] concatenates_S3200000_S100000_S3300000_d0

def dstEnds (e : (⟨S2x3200000, .i32⟩ : BufTy).Contents (Elt F)) : (⟨S3300000, .i32⟩ : BufTy).Contents (Elt F) :=
  concatenate S3300000 0
    [⟨S3200000, shapeCast S3200000 (extractStridedSlice S1x3200000 ![1, 0] e slices_S2x3200000_S1x3200000_1_0) shapeCasts_S1x3200000_S3200000⟩,
     ⟨S100000, iotaInDim S100000 32 0⟩] concatenates_S3200000_S100000_S3300000_d0

/-- A list of numbers as a column. -/
def col {α : Type} (x : S3300000.Idx → α) : S3300000x1.Idx → α :=
  broadcastInDim S3300000x1 ![0] bcast_S3300000_S3300000x1_0 x

/-- A node number below zero is read from the end: the node count is added to it. -/
def wrap (x : (⟨S3300000, .i32⟩ : BufTy).Contents (Elt F)) : (⟨S3300000, .i32⟩ : BufTy).Contents (Elt F) :=
  select (cmpi .slt x (broadcastInDim S3300000 ![] bcast_S_S3300000 (constantI S_ 32 0#32)))
    (addi x (broadcastInDim S3300000 ![] bcast_S_S3300000 (constantI S_ 32 100000#32))) x

/-- The number of listed edges ending at each node: ones added up at the destinations. -/
def degree (d : (⟨S3300000, .i32⟩ : BufTy).Contents (Elt F)) : (⟨S100000, .f32⟩ : BufTy).Contents (Elt F) :=
  Host.scatterAdd (F := F) scatter_S100000_S3300000x1_S3300000_n_0_0_1
    (broadcastInDim S100000 ![] bcast_S_S100000 (constant (F := F) S_ .f32 0x00000000#32))
    (col d)
    (broadcastInDim S3300000 ![] bcast_S_S3300000 (constant (F := F) S_ .f32 0x3F800000#32))

/-- deg^(-1/2) where the degree is positive, 0 elsewhere. -/
def invSqrtDeg (d : (⟨S3300000, .i32⟩ : BufTy).Contents (Elt F)) : (⟨S100000, .f32⟩ : BufTy).Contents (Elt F) :=
  select (cmpf (F := F) .ogt (degree (F := F) d) (broadcastInDim S100000 ![] bcast_S_S100000 (constant (F := F) S_ .f32 0x00000000#32)))
    (Host.rsqrt (F := F) (degree (F := F) d))
    (broadcastInDim S100000 ![] bcast_S_S100000 (constant (F := F) S_ .f32 0x00000000#32))

/-- An edge's coefficient: the product of its two ends' weights. -/
def edgeCoef (s d : (⟨S3300000, .i32⟩ : BufTy).Contents (Elt F)) : (⟨S3300000, .f32⟩ : BufTy).Contents (Elt F) :=
  mulf (F := F)
    (Host.gather gather_S100000_S3300000x1_S3300000_n_0_n_n_0_1_1 (invSqrtDeg (F := F) d) (col (wrap (F := F) s)))
    (Host.gather gather_S100000_S3300000x1_S3300000_n_0_n_n_0_1_1 (invSqrtDeg (F := F) d) (col (wrap (F := F) d)))

/-- One propagation step on 16 features per node. -/
def propagate16 (h : (⟨S100000x16, .f32⟩ : BufTy).Contents (Elt F)) (s d : (⟨S3300000, .i32⟩ : BufTy).Contents (Elt F))
    (coef : (⟨S3300000, .f32⟩ : BufTy).Contents (Elt F)) (b : (⟨S16, .f32⟩ : BufTy).Contents (Elt F)) :
    (⟨S100000x16, .f32⟩ : BufTy).Contents (Elt F) :=
  addf (F := F)
    (Host.scatterAdd (F := F) scatter_S100000x16_S3300000x1_S3300000x16_1_0_0_1
      (broadcastInDim S100000x16 ![] bcast_S_S100000x16 (constant (F := F) S_ .f32 0x00000000#32))
      (col d)
      (mulf (F := F)
        (Host.gather gather_S100000x16_S3300000x1_S3300000x16_1_0_n_n_0_1_116 h (col (wrap (F := F) s)))
        (broadcastInDim S3300000x16 ![0, 1] bcast_S3300000x1_S3300000x16_0_1 (col coef))))
    (broadcastInDim S100000x16 ![0, 1] bcast_S1x16_S100000x16_0_1 (broadcastInDim S1x16 ![1] bcast_S16_S1x16_1 b))

/-- The positive part. -/
def relu16 (x : (⟨S100000x16, .f32⟩ : BufTy).Contents (Elt F)) : (⟨S100000x16, .f32⟩ : BufTy).Contents (Elt F) :=
  maximumf (F := F) x (broadcastInDim S100000x16 ![] bcast_S_S100000x16 (constant (F := F) S_ .f32 0x00000000#32))

/-- One propagation step on 7 features per node. -/
def propagate7 (h : (⟨S100000x7, .f32⟩ : BufTy).Contents (Elt F)) (s d : (⟨S3300000, .i32⟩ : BufTy).Contents (Elt F))
    (coef : (⟨S3300000, .f32⟩ : BufTy).Contents (Elt F)) (b : (⟨S7, .f32⟩ : BufTy).Contents (Elt F)) :
    (⟨S100000x7, .f32⟩ : BufTy).Contents (Elt F) :=
  addf (F := F)
    (Host.scatterAdd (F := F) scatter_S100000x7_S3300000x1_S3300000x7_1_0_0_1
      (broadcastInDim S100000x7 ![] bcast_S_S100000x7 (constant (F := F) S_ .f32 0x00000000#32))
      (col d)
      (mulf (F := F)
        (Host.gather gather_S100000x7_S3300000x1_S3300000x7_1_0_n_n_0_1_17 h (col (wrap (F := F) s)))
        (broadcastInDim S3300000x7 ![0, 1] bcast_S3300000x1_S3300000x7_0_1 (col coef))))
    (broadcastInDim S100000x7 ![0, 1] bcast_S1x7_S100000x7_0_1 (broadcastInDim S1x7 ![1] bcast_S7_S1x7_1 b))

/-- A per-node number repeated along the node's row of 7 classes. -/
def alongRow {α : Type} (x : S100000.Idx → α) : S100000x7.Idx → α :=
  broadcastInDim S100000x7 ![0, 1] bcast_S100000x1_S100000x7_0_1 (broadcastInDim S100000x1 ![0] bcast_S100000_S100000x1_0 x)

/-- A row minus its maximum. -/
def centered (z : (⟨S100000x7, .f32⟩ : BufTy).Contents (Elt F)) : (⟨S100000x7, .f32⟩ : BufTy).Contents (Elt F) :=
  subf (F := F) z (alongRow
    (maximumf (F := F) (broadcastInDim S100000 ![] bcast_S_S100000 (constant (F := F) S_ .f32 0xFF800000#32))
      (Host.reduce FloatOps.maximumf z (constant (F := F) S_ .f32 0xFF800000#32) reducesTo_S100000x7_S100000_d1 h_S_)))

/-- The logarithm of the row-wise softmax: the centered row minus the logarithm of the sum of its exponentials. -/
def logSoftmax (z : (⟨S100000x7, .f32⟩ : BufTy).Contents (Elt F)) : (⟨S100000x7, .f32⟩ : BufTy).Contents (Elt F) :=
  subf (F := F) (centered (F := F) z)
    (broadcastInDim S100000x7 ![0, 1] bcast_S100000x1_S100000x7_0_1
      (Host.log (F := F) (broadcastInDim S100000x1 ![0] bcast_S100000_S100000x1_0
        (Host.reduceAdd (F := F) (Host.exp (F := F) (centered (F := F) z)) (constant (F := F) S_ .f32 0x00000000#32) reducesTo_S100000x7_S100000_d1 h_S_))))

end Cert.Gcn

end
-- ==== Proof.LibHostJoin.lean ====
/-
  Reading a line of host operations in one rewriting pass, through two-operand joins.

  The host's `concatenate` takes its operands as a list of (shape, array) pairs. `join2` is the join of TWO arrays
  along an axis with the two arrays as arguments of their own: the same function, restated so that what is known about
  either operand can be rewritten inside it. `host_read` reads what a buffer holds after a literal line of host
  operations (`StableHlo.after ops V` at a buffer): every operation's result at its own buffer becomes its function of
  its operands' contents, at any other buffer what was there before, every two-operand join is restated as `join2`
  on the way, the identity transports between a buffer's own type and its value's type cancel, and what is left is the operations' composed term over `V` at the buffers the line only reads.
-/
import Idealize.ShloMosaic.Lib.StableHlo.Run

noncomputable section

namespace Cert.LibHostJoin

open Idealize.ShloMosaic Idealize.ShloMosaic.StableHlo

/-- The join of two arrays along axis `a`: entry `i` comes from the first array where `i`'s coordinate on `a` is
    below the first array's extent there, from the second otherwise. -/
def join2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- The host's join of a two-element list is `join2` of the two arrays. -/
theorem concatenate_pair {α : Type} (t : Shape) (a : Fin t.rank) (s₁ s₂ : Shape) (x : s₁.Idx → α) (y : s₂.Idx → α)
    (h : Shape.Concatenates [s₁, s₂] t a) : concatenate t a [⟨s₁, x⟩, ⟨s₂, y⟩] h = join2 t a s₁ s₂ x y h := rfl

/-- Reads `StableHlo.after ops V` at a buffer for a literal line `ops`, in one pass. -/
macro "host_read" : tactic =>
  `(tactic| (simp (disch := decide) only [after_cons, after_nil, concatenate_pair, cast_cast, cast_eq,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Cert.LibHostJoin

end
-- ==== Proof.KernelStages.lean ====
/-
  The kernel program's four stretches of host operations, each read as a function of what it finds.

  Between the three matrix-product regions the program runs the same host operations as the reference. Each stretch is
  read here from ANY buffer contents `Vl` it may start from: the stretch before the first region leaves the two lists of
  edge ends and the edge coefficients, functions of the edge list alone; the stretch after the first (second) region
  leaves the positive part of the propagated product it finds in the region's output buffer; the last stretch leaves the
  logarithm of the row-wise softmax of the propagated third product. Every buffer a stretch does not write keeps its
  contents: the argument arrays, and the edge ends and coefficients once computed.
-/
import proofs.«178223_j10960756539504_1_alg».proof.Proof.Gen.KernelIdeal.Frame
import proofs.«178223_j10960756539504_1_alg».proof.Proof.Spec
import proofs.«178223_j10960756539504_1_alg».proof.Proof.LibHostJoin

noncomputable section

namespace Cert.KernelIdeal.Stages

open Cert.KernelIdeal Cert.KernelIdeal.Gen
open Idealize.ShloMosaic Idealize.ShloMosaic.TcCoe Idealize.SL.Sem Idealize.ShloMosaic.StableHlo
open Cert.LibHostJoin Cert.Gcn

variable {F : FTy → Type} [FloatOps F] (Vl : Valuation τ sig (Elt F))

/-! ## Before the first region: the edge ends and the edge coefficients -/

theorem pre_src : StableHlo.after (hostOps0_2 (F := F)) (StableHlo.after (hostOps0_1 (F := F)) (StableHlo.after (hostOps0 (F := F)) Vl)) (Proc.devRef .tc main_v3)
    = srcEnds (F := F) (Vl (Proc.devRef .tc main_arg7)) := by
  host_read
  rfl

theorem pre_dst : StableHlo.after (hostOps0_2 (F := F)) (StableHlo.after (hostOps0_1 (F := F)) (StableHlo.after (hostOps0 (F := F)) Vl)) (Proc.devRef .tc main_v6)
    = dstEnds (F := F) (Vl (Proc.devRef .tc main_arg7)) := by
  host_read
  rfl

theorem pre_coef : StableHlo.after (hostOps0_2 (F := F)) (StableHlo.after (hostOps0_1 (F := F)) (StableHlo.after (hostOps0 (F := F)) Vl)) (Proc.devRef .tc main_v29)
    = edgeCoef (F := F) (srcEnds (F := F) (Vl (Proc.devRef .tc main_arg7))) (dstEnds (F := F) (Vl (Proc.devRef .tc main_arg7))) := by
  host_read
  rfl

theorem pre_keep_main_arg0 : StableHlo.after (hostOps0_2 (F := F)) (StableHlo.after (hostOps0_1 (F := F)) (StableHlo.after (hostOps0 (F := F)) Vl)) (Proc.devRef .tc main_arg0) = Vl (Proc.devRef .tc main_arg0) := by
  host_read
theorem pre_keep_main_arg1 : StableHlo.after (hostOps0_2 (F := F)) (StableHlo.after (hostOps0_1 (F := F)) (StableHlo.after (hostOps0 (F := F)) Vl)) (Proc.devRef .tc main_arg1) = Vl (Proc.devRef .tc main_arg1) := by
  host_read
theorem pre_keep_main_arg2 : StableHlo.after (hostOps0_2 (F := F)) (StableHlo.after (hostOps0_1 (F := F)) (StableHlo.after (hostOps0 (F := F)) Vl)) (Proc.devRef .tc main_arg2) = Vl (Proc.devRef .tc main_arg2) := by
  host_read
theorem pre_keep_main_arg3 : StableHlo.after (hostOps0_2 (F := F)) (StableHlo.after (hostOps0_1 (F := F)) (StableHlo.after (hostOps0 (F := F)) Vl)) (Proc.devRef .tc main_arg3) = Vl (Proc.devRef .tc main_arg3) := by
  host_read
theorem pre_keep_main_arg4 : StableHlo.after (hostOps0_2 (F := F)) (StableHlo.after (hostOps0_1 (F := F)) (StableHlo.after (hostOps0 (F := F)) Vl)) (Proc.devRef .tc main_arg4) = Vl (Proc.devRef .tc main_arg4) := by
  host_read
theorem pre_keep_main_arg5 : StableHlo.after (hostOps0_2 (F := F)) (StableHlo.after (hostOps0_1 (F := F)) (StableHlo.after (hostOps0 (F := F)) Vl)) (Proc.devRef .tc main_arg5) = Vl (Proc.devRef .tc main_arg5) := by
  host_read
theorem pre_keep_main_arg6 : StableHlo.after (hostOps0_2 (F := F)) (StableHlo.after (hostOps0_1 (F := F)) (StableHlo.after (hostOps0 (F := F)) Vl)) (Proc.devRef .tc main_arg6) = Vl (Proc.devRef .tc main_arg6) := by
  host_read

/-! ## After the first region: propagate the product, take the positive part -/

theorem mid1_hidden : StableHlo.after (hostOps1_1 (F := F)) (StableHlo.after (hostOps1 (F := F)) Vl) (Proc.devRef .tc main_v47)
    = relu16 (F := F) (propagate16 (F := F) (Vl (Proc.devRef .tc main_v30)) (Vl (Proc.devRef .tc main_v3)) (Vl (Proc.devRef .tc main_v6)) (Vl (Proc.devRef .tc main_v29)) (Vl (Proc.devRef .tc main_arg2))) := by
  host_read
  rfl

theorem mid1_keep_main_v3 : StableHlo.after (hostOps1_1 (F := F)) (StableHlo.after (hostOps1 (F := F)) Vl) (Proc.devRef .tc main_v3) = Vl (Proc.devRef .tc main_v3) := by
  host_read
theorem mid1_keep_main_v6 : StableHlo.after (hostOps1_1 (F := F)) (StableHlo.after (hostOps1 (F := F)) Vl) (Proc.devRef .tc main_v6) = Vl (Proc.devRef .tc main_v6) := by
  host_read
theorem mid1_keep_main_v29 : StableHlo.after (hostOps1_1 (F := F)) (StableHlo.after (hostOps1 (F := F)) Vl) (Proc.devRef .tc main_v29) = Vl (Proc.devRef .tc main_v29) := by
  host_read
theorem mid1_keep_main_arg3 : StableHlo.after (hostOps1_1 (F := F)) (StableHlo.after (hostOps1 (F := F)) Vl) (Proc.devRef .tc main_arg3) = Vl (Proc.devRef .tc main_arg3) := by
  host_read
theorem mid1_keep_main_arg4 : StableHlo.after (hostOps1_1 (F := F)) (StableHlo.after (hostOps1 (F := F)) Vl) (Proc.devRef .tc main_arg4) = Vl (Proc.devRef .tc main_arg4) := by
  host_read
theorem mid1_keep_main_arg5 : StableHlo.after (hostOps1_1 (F := F)) (StableHlo.after (hostOps1 (F := F)) Vl) (Proc.devRef .tc main_arg5) = Vl (Proc.devRef .tc main_arg5) := by
  host_read
theorem mid1_keep_main_arg6 : StableHlo.after (hostOps1_1 (F := F)) (StableHlo.after (hostOps1 (F := F)) Vl) (Proc.devRef .tc main_arg6) = Vl (Proc.devRef .tc main_arg6) := by
  host_read

/-! ## After the second region: the same step on the second product -/

theorem mid2_hidden : StableHlo.after (hostOps2_1 (F := F)) (StableHlo.after (hostOps2 (F := F)) Vl) (Proc.devRef .tc main_v65)
    = relu16 (F := F) (propagate16 (F := F) (Vl (Proc.devRef .tc main_v48)) (Vl (Proc.devRef .tc main_v3)) (Vl (Proc.devRef .tc main_v6)) (Vl (Proc.devRef .tc main_v29)) (Vl (Proc.devRef .tc main_arg4))) := by
  host_read
  rfl

theorem mid2_keep_main_v3 : StableHlo.after (hostOps2_1 (F := F)) (StableHlo.after (hostOps2 (F := F)) Vl) (Proc.devRef .tc main_v3) = Vl (Proc.devRef .tc main_v3) := by
  host_read
theorem mid2_keep_main_v6 : StableHlo.after (hostOps2_1 (F := F)) (StableHlo.after (hostOps2 (F := F)) Vl) (Proc.devRef .tc main_v6) = Vl (Proc.devRef .tc main_v6) := by
  host_read
theorem mid2_keep_main_v29 : StableHlo.after (hostOps2_1 (F := F)) (StableHlo.after (hostOps2 (F := F)) Vl) (Proc.devRef .tc main_v29) = Vl (Proc.devRef .tc main_v29) := by
  host_read
theorem mid2_keep_main_arg5 : StableHlo.after (hostOps2_1 (F := F)) (StableHlo.after (hostOps2 (F := F)) Vl) (Proc.devRef .tc main_arg5) = Vl (Proc.devRef .tc main_arg5) := by
  host_read
theorem mid2_keep_main_arg6 : StableHlo.after (hostOps2_1 (F := F)) (StableHlo.after (hostOps2 (F := F)) Vl) (Proc.devRef .tc main_arg6) = Vl (Proc.devRef .tc main_arg6) := by
  host_read

/-! ## After the third region: propagate the third product, then the logarithm of the softmax -/

theorem tail_logits : StableHlo.after (hostOps3 (F := F)) Vl (Proc.devRef .tc main_v82)
    = propagate7 (F := F) (Vl (Proc.devRef .tc main_v66)) (Vl (Proc.devRef .tc main_v3)) (Vl (Proc.devRef .tc main_v6)) (Vl (Proc.devRef .tc main_v29)) (Vl (Proc.devRef .tc main_arg6)) := by
  host_read
  rfl

theorem tail_result : StableHlo.after (hostOps3_1 (F := F)) Vl (Proc.devRef .tc main_v83)
    = logSoftmax (F := F) (Vl (Proc.devRef .tc main_v82)) := by
  host_read
  rfl

end Cert.KernelIdeal.Stages

end
-- ==== Proof.LibDotPlain.lean ====
/-
  A matrix product with one contracted axis, read at an entry.

  For dimension numbers `D` of a product [N, K] × [K, M] → [N, M] that contract the left operand's axis 1 against the
  right operand's axis 0, the sum over the contraction's index set of the products of the operands read at `D`'s operand
  indices is the plain sum over `k : Fin K` of `l (p, k) · r (k, q)`. The four hypotheses say where `D` reads its
  operands, coordinate by coordinate; for printed dimension numbers each is one line (the two non-contracted
  coordinates by unfolding the index function, the two contracted ones by `DotDims.lhsIdx_val_of_single` and
  `DotDims.rhsIdx_val_of_single`).
-/
import Idealize.ShloMosaic.PureOps.Ideal
import Idealize.ShloMosaic.PureOps.Ideal.Laws
import Idealize.ShloMosaic.Lib.ValueIdx

noncomputable section

open scoped BigOperators

namespace Cert.LibDotPlain

open Idealize.ShloMosaic Idealize.ShloMosaic.ValueIdx

/-- The contraction's sum, re-indexed by the contracted coordinate. -/
theorem sum_contr_plain {N K M : Nat} {α : Type} [AddCommMonoid α] [Mul α]
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (l : (⟨2, ![N, K]⟩ : Shape).Idx → α) (r : (⟨2, ![K, M]⟩ : Shape).Idx → α) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A matrix-unit product into a zero accumulator, at the extended reals, read at entry (p, q). -/
theorem matmul_zero_plain {N K M : Nat} {φ₁ φ₂ : FTy}
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (prec : Option ContractPrecision)
    (l : FVec Ideal ⟨2, ![N, K]⟩ φ₁) (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  (Ideal.matmul_constant_zero_apply D prec l r (ix2 p q)).trans (sum_contr_plain D hr hs hl0 hl1 hr0 hr1 l r p q)

end Cert.LibDotPlain

end
-- ==== Proof.Region0.lean ====
/-
  The first linear layer as a whole array. The region walks the 100000 rows of its left operand in 50 blocks of
  2000 rows; at each block it multiplies the block by the whole right operand, [1433, 16], and writes the
  2000 × 16 product to the same rows of the output. On the extended reals the narrowing of the operands is the
  identity and the product into a zero accumulator is the exact sum, so block t of the output is rows
  2000 t … 2000 t + 1999 of the matrix product of the two arrays; the 50 blocks tile the rows, so after the region
  the output array IS that product.
-/
import proofs.«178223_j10960756539504_1_alg».proof.Proof.Gen.KernelIdeal.Frame
import proofs.«178223_j10960756539504_1_alg».proof.Proof.MatSpec
import proofs.«178223_j10960756539504_1_alg».proof.Proof.LibDotPlain
import Idealize.ShloMosaic.Lib.Pipeline.Value
import Idealize.ShloMosaic.Lib.ValueIdx
import Idealize.ShloMosaic.PureOps.Ideal.Laws

noncomputable section

open scoped BigOperators

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

/-- The zero offsets of a whole-block access, however they are spelt. -/
theorem hz0 : (![0, 0] : Fin 2 → Nat) = fun _ => 0 := funext fun a => by fin_cases a <;> rfl

/-- The body's product at entry (p, q): the sum over the shared coordinate of the products of the two loaded blocks.
    The narrowing of both operands is the identity on the extended reals. -/
theorem pay0_apply (x0 : Vec Ideal S2000x1433 .f32) (x1 : Vec Ideal S1433x16 .f32) (p : Fin 2000) (q : Fin 16) :
    Gen.k0_pay1 x0 x1 (ix2 p q) = ∑ k : Fin 1433, x0 (ix2 p k) * x1 (ix2 k q) := by
  unfold Gen.k0_pay1
  exact Cert.LibDotPlain.matmul_zero_plain (N := 2000) (K := 1433) (M := 16)
    dot_S2000x1433_S1433x16_S2000x16_1_0_0_1_n_n rfl rfl
    (by intro i k; unfold DotDims.lhsIdx
        rw [dif_neg (show ¬(0 : Fin S2000x1433.rank) ∈ dot_S2000x1433_S1433x16_S2000x16_1_0_0_1_n_n.lhsBatch by decide),
          dif_pos (show (0 : Fin S2000x1433.rank) ∈ dot_S2000x1433_S1433x16_S2000x16_1_0_0_1_n_n.lhsNonContracting by decide)]
        rfl)
    (fun i k => dot_S2000x1433_S1433x16_S2000x16_1_0_0_1_n_n.lhsIdx_val_of_single rfl i k)
    (fun i k => dot_S2000x1433_S1433x16_S2000x16_1_0_0_1_n_n.rhsIdx_val_of_single rfl i k)
    (by intro i k; unfold DotDims.rhsIdx
        rw [dif_neg (show ¬(1 : Fin S1433x16.rank) ∈ dot_S2000x1433_S1433x16_S2000x16_1_0_0_1_n_n.rhsBatch by decide),
          dif_pos (show (1 : Fin S1433x16.rank) ∈ dot_S2000x1433_S1433x16_S2000x16_1_0_0_1_n_n.rhsNonContracting by decide)]
        rfl)
    none x0 x1 p q

/-- Where each window's block sits at grid point t, decided over the 50 points: the left operand's and the
    output's block index is (t, 0), the right operand's is (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at grid point t, read at (p, k), is the array at row 2000 t + p, column k: a block's
    coordinate in its array is the block index times the block's extent plus the coordinate inside the block. -/
theorem lhs_block0 (V : (c : Dev nD) → (b : Ref sig .tc) → Buf (Elt Ideal) ((c : Thread nD τ).loc b)) (c : Dev nD) (t : Fin cfg0.N) (p : Fin 2000) (k : Fin 1433) (r : Fin 100000)
    (hr : r.val = t.val * 2000 + p.val) :
    (Gen.iblk0 (F := Ideal) V c 0 t : Vec Ideal S2000x1433 .f32) (ix2 p k)
      = (V c main_arg0 : S100000x1433.Idx → EReal) (ix2 r k) := by
  obtain ⟨e0, e1, -, -, -, -⟩ := idx_facts0 t
  unfold Gen.iblk0
  rw [View.read_apply]
  show V c main_arg0 _ = V c main_arg0 _
  congr 1
  funext a
  apply Fin.ext
  match a with
  | ⟨0, _⟩ => show win0_0.index t 0 * 2000 + 1 * p.val = r.val; rw [e0, hr]; omega
  | ⟨1, _⟩ => show win0_0.index t 1 * 1433 + 1 * k.val = k.val; rw [e1]; omega

/-- The right operand's block is the whole array at every grid point. -/
theorem rhs_block0 (V : (c : Dev nD) → (b : Ref sig .tc) → Buf (Elt Ideal) ((c : Thread nD τ).loc b)) (c : Dev nD) (t : Fin cfg0.N) (k : Fin 1433) (q : Fin 16) :
    (Gen.iblk0 (F := Ideal) V c 1 t : Vec Ideal S1433x16 .f32) (ix2 k q)
      = (V c main_arg1 : S1433x16.Idx → EReal) (ix2 k q) := by
  obtain ⟨-, -, e2, e3, -, -⟩ := idx_facts0 t
  unfold Gen.iblk0
  rw [View.read_apply]
  show V c main_arg1 _ = V c main_arg1 _
  congr 1
  funext a
  apply Fin.ext
  match a with
  | ⟨0, _⟩ => show win0_1.index t 0 * 1433 + 1 * k.val = k.val; rw [e2]; omega
  | ⟨1, _⟩ => show win0_1.index t 1 * 16 + 1 * q.val = q.val; rw [e3]; omega

/-- What grid point t writes back is block t of the matrix product of the two arrays as the region found them. -/
theorem flushed0 (V : (c : Dev nD) → (b : Ref sig .tc) → Buf (Elt Ideal) ((c : Thread nD τ).loc b)) (c : Dev nD) (t : Fin cfg0.N) :
    (Gen.dat0 (F := Ideal) V c).flushed 2 t
      = ((cfg0.win 2).blk t).view.read (Elt Ideal) (Cert.Gcn.mm 100000 1433 16 (V c main_arg0) (V c main_arg1)) := by
  show (cfg0.win 2).cut (grid0.coords t) ((Gen.dat0 V c).after 2 t) = _
  rw [Gen.after0_2]
  unfold Gen.out0_2
  rw [View.canon_unit_zero hz0]
  simp only [View.ld_unit_zero (S := S2000x1433) hz0, View.ld_unit_zero (S := S1433x16) hz0]
  obtain ⟨-, -, -, -, e4, e5⟩ := idx_facts0 t
  funext y
  obtain ⟨p, q, rfl⟩ : ∃ (p : Fin 2000) (q : Fin 16), y = ix2 p q := ⟨y 0, y 1, eq_ix2 y⟩
  rw [View.read_apply]
  show Gen.k0_pay1 (Gen.iblk0 V c 0 t) (Gen.iblk0 V c 1 t) (ix2 p q)
    = Cert.Gcn.mm 100000 1433 16 (V c main_arg0) (V c main_arg1) (((cfg0.win 2).blk t).view.emb (ix2 p q))
  have hp : p.val < 2000 := p.isLt
  have ht : t.val < 50 := Nat.lt_of_lt_of_eq t.isLt Gen.N_0
  have hemb : ((cfg0.win 2).blk t).view.emb (ix2 p q)
      = (ix2 (⟨t.val * 2000 + p.val, by omega⟩ : Fin 100000) q : S100000x16.Idx) := by
    funext a
    apply Fin.ext
    match a with
    | ⟨0, _⟩ => show win0_2.index t 0 * 2000 + 1 * p.val = t.val * 2000 + p.val; rw [e4]; omega
    | ⟨1, _⟩ => show win0_2.index t 1 * 16 + 1 * q.val = q.val; rw [e5]; omega
  rw [hemb, Cert.Gcn.mm_apply, pay0_apply]
  refine Finset.sum_congr rfl fun k _ => ?_
  rw [lhs_block0 V c t p k ⟨t.val * 2000 + p.val, by omega⟩ rfl, rhs_block0 V c t k q]

/-- Row r of the output lies in the block of grid point r / 2000, and every point writes its block back: the 50
    blocks tile the array. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 50 := Gen.N_0
  let t : Fin cfg0.N := ⟨(i 0).val / 2000, by rw [hN]; omega⟩
  have htv : t.val = (i 0).val / 2000 := rfl
  obtain ⟨-, -, -, -, e4, e5⟩ := idx_facts0 t
  refine ⟨t, Gen.flush0_2 t, ?_⟩
  show i ∈ ((View.whole main_v30).slice (win0_2.rect t)).set
  rw [View.set_slice_whole, Rect.mem_set_unit]
  intro a
  match a with
  | ⟨0, _⟩ =>
    show win0_2.index t 0 * 2000 ≤ (i 0).val ∧ (i 0).val < win0_2.index t 0 * 2000 + 2000
    rw [e4, htv]; omega
  | ⟨1, _⟩ =>
    show win0_2.index t 1 * 16 ≤ (i 1).val ∧ (i 1).val < win0_2.index t 1 * 16 + 16
    rw [e5]; omega

/-- After the region the output array is the matrix product of the two input arrays as the region found them. -/
theorem region0_value (V : (c : Dev nD) → (b : Ref sig .tc) → Buf (Elt Ideal) ((c : Thread nD τ).loc b)) (c : Dev nD) :
    (Gen.dat0 (F := Ideal) V c).arrAt 2 cfg0.N = Cert.Gcn.mm 100000 1433 16 (V c main_arg0) (V c main_arg1) :=
  (Gen.dat0 (F := Ideal) V c).arrAt_eq_of_cover 2 (Cert.Gcn.mm 100000 1433 16 (V c main_arg0) (V c main_arg1))
    (fun t _ => flushed0 V c t) cover0

end Cert.KernelIdeal.Regions

end
-- ==== Proof.Region1.lean ====
/-
  The second linear layer as a whole array. The region walks the 100000 rows of its left operand in 50 blocks of
  2000 rows; at each block it multiplies the block by the whole right operand, [16, 16], and writes the
  2000 × 16 product to the same rows of the output. On the extended reals the cast of the left block to its own
  shape and the narrowing of the operands are the identity and the product into a zero accumulator is the exact
  sum, so block t of the output is rows 2000 t … 2000 t + 1999 of the matrix product of the two arrays; the 50
  blocks tile the rows, so after the region the output array IS that product.
-/
import proofs.«178223_j10960756539504_1_alg».proof.Proof.Gen.KernelIdeal.Frame
import proofs.«178223_j10960756539504_1_alg».proof.Proof.MatSpec
import proofs.«178223_j10960756539504_1_alg».proof.Proof.LibDotPlain
import Idealize.ShloMosaic.Lib.Pipeline.Value
import Idealize.ShloMosaic.Lib.ValueIdx
import Idealize.ShloMosaic.PureOps.Ideal.Laws

noncomputable section

open scoped BigOperators

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

/-- The zero offsets of a whole-block access, however they are spelt. -/
theorem hz1 : (![0, 0] : Fin 2 → Nat) = fun _ => 0 := funext fun a => by fin_cases a <;> rfl

/-- The body's product at entry (p, q): the sum over the shared coordinate of the products of the two loaded blocks.
    The left block's cast to its own shape is the identity, and the narrowing of both operands is the identity on the extended reals. -/
theorem pay1_apply (x0 : Vec Ideal S2000x16 .f32) (x1 : Vec Ideal S16x16 .f32) (p : Fin 2000) (q : Fin 16) :
    Gen.k1_pay1 x0 x1 (ix2 p q) = ∑ k : Fin 16, x0 (ix2 p k) * x1 (ix2 k q) := by
  unfold Gen.k1_pay1
  simp only [shapeCast_self]
  exact Cert.LibDotPlain.matmul_zero_plain (N := 2000) (K := 16) (M := 16)
    dot_S2000x16_S16x16_S2000x16_1_0_0_1_n_n rfl rfl
    (by intro i k; unfold DotDims.lhsIdx
        rw [dif_neg (show ¬(0 : Fin S2000x16.rank) ∈ dot_S2000x16_S16x16_S2000x16_1_0_0_1_n_n.lhsBatch by decide),
          dif_pos (show (0 : Fin S2000x16.rank) ∈ dot_S2000x16_S16x16_S2000x16_1_0_0_1_n_n.lhsNonContracting by decide)]
        rfl)
    (fun i k => dot_S2000x16_S16x16_S2000x16_1_0_0_1_n_n.lhsIdx_val_of_single rfl i k)
    (fun i k => dot_S2000x16_S16x16_S2000x16_1_0_0_1_n_n.rhsIdx_val_of_single rfl i k)
    (by intro i k; unfold DotDims.rhsIdx
        rw [dif_neg (show ¬(1 : Fin S16x16.rank) ∈ dot_S2000x16_S16x16_S2000x16_1_0_0_1_n_n.rhsBatch by decide),
          dif_pos (show (1 : Fin S16x16.rank) ∈ dot_S2000x16_S16x16_S2000x16_1_0_0_1_n_n.rhsNonContracting by decide)]
        rfl)
    none x0 x1 p q

/-- Where each window's block sits at grid point t, decided over the 50 points: the left operand's and the
    output's block index is (t, 0), the right operand's is (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at grid point t, read at (p, k), is the array at row 2000 t + p, column k: a block's
    coordinate in its array is the block index times the block's extent plus the coordinate inside the block. -/
theorem lhs_block1 (V : (c : Dev nD) → (b : Ref sig .tc) → Buf (Elt Ideal) ((c : Thread nD τ).loc b)) (c : Dev nD) (t : Fin cfg1.N) (p : Fin 2000) (k : Fin 16) (r : Fin 100000)
    (hr : r.val = t.val * 2000 + p.val) :
    (Gen.iblk1 (F := Ideal) V c 0 t : Vec Ideal S2000x16 .f32) (ix2 p k)
      = (V c main_v47 : S100000x16.Idx → EReal) (ix2 r k) := by
  obtain ⟨e0, e1, -, -, -, -⟩ := idx_facts1 t
  unfold Gen.iblk1
  rw [View.read_apply]
  show V c main_v47 _ = V c main_v47 _
  congr 1
  funext a
  apply Fin.ext
  match a with
  | ⟨0, _⟩ => show win1_0.index t 0 * 2000 + 1 * p.val = r.val; rw [e0, hr]; omega
  | ⟨1, _⟩ => show win1_0.index t 1 * 16 + 1 * k.val = k.val; rw [e1]; omega

/-- The right operand's block is the whole array at every grid point. -/
theorem rhs_block1 (V : (c : Dev nD) → (b : Ref sig .tc) → Buf (Elt Ideal) ((c : Thread nD τ).loc b)) (c : Dev nD) (t : Fin cfg1.N) (k : Fin 16) (q : Fin 16) :
    (Gen.iblk1 (F := Ideal) V c 1 t : Vec Ideal S16x16 .f32) (ix2 k q)
      = (V c main_arg3 : S16x16.Idx → EReal) (ix2 k q) := by
  obtain ⟨-, -, e2, e3, -, -⟩ := idx_facts1 t
  unfold Gen.iblk1
  rw [View.read_apply]
  show V c main_arg3 _ = V c main_arg3 _
  congr 1
  funext a
  apply Fin.ext
  match a with
  | ⟨0, _⟩ => show win1_1.index t 0 * 16 + 1 * k.val = k.val; rw [e2]; omega
  | ⟨1, _⟩ => show win1_1.index t 1 * 16 + 1 * q.val = q.val; rw [e3]; omega

/-- What grid point t writes back is block t of the matrix product of the two arrays as the region found them. -/
theorem flushed1 (V : (c : Dev nD) → (b : Ref sig .tc) → Buf (Elt Ideal) ((c : Thread nD τ).loc b)) (c : Dev nD) (t : Fin cfg1.N) :
    (Gen.dat1 (F := Ideal) V c).flushed 2 t
      = ((cfg1.win 2).blk t).view.read (Elt Ideal) (Cert.Gcn.mm 100000 16 16 (V c main_v47) (V c main_arg3)) := by
  show (cfg1.win 2).cut (grid1.coords t) ((Gen.dat1 V c).after 2 t) = _
  rw [Gen.after1_2]
  unfold Gen.out1_2
  rw [View.canon_unit_zero hz1]
  simp only [View.ld_unit_zero (S := S2000x16) hz1, View.ld_unit_zero (S := S16x16) hz1]
  obtain ⟨-, -, -, -, e4, e5⟩ := idx_facts1 t
  funext y
  obtain ⟨p, q, rfl⟩ : ∃ (p : Fin 2000) (q : Fin 16), y = ix2 p q := ⟨y 0, y 1, eq_ix2 y⟩
  rw [View.read_apply]
  show Gen.k1_pay1 (Gen.iblk1 V c 0 t) (Gen.iblk1 V c 1 t) (ix2 p q)
    = Cert.Gcn.mm 100000 16 16 (V c main_v47) (V c main_arg3) (((cfg1.win 2).blk t).view.emb (ix2 p q))
  have hp : p.val < 2000 := p.isLt
  have ht : t.val < 50 := Nat.lt_of_lt_of_eq t.isLt Gen.N_1
  have hemb : ((cfg1.win 2).blk t).view.emb (ix2 p q)
      = (ix2 (⟨t.val * 2000 + p.val, by omega⟩ : Fin 100000) q : S100000x16.Idx) := by
    funext a
    apply Fin.ext
    match a with
    | ⟨0, _⟩ => show win1_2.index t 0 * 2000 + 1 * p.val = t.val * 2000 + p.val; rw [e4]; omega
    | ⟨1, _⟩ => show win1_2.index t 1 * 16 + 1 * q.val = q.val; rw [e5]; omega
  rw [hemb, Cert.Gcn.mm_apply, pay1_apply]
  refine Finset.sum_congr rfl fun k _ => ?_
  rw [lhs_block1 V c t p k ⟨t.val * 2000 + p.val, by omega⟩ rfl, rhs_block1 V c t k q]

/-- Row r of the output lies in the block of grid point r / 2000, and every point writes its block back: the 50
    blocks tile the array. -/
theorem cover1 (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 50 := Gen.N_1
  let t : Fin cfg1.N := ⟨(i 0).val / 2000, by rw [hN]; omega⟩
  have htv : t.val = (i 0).val / 2000 := rfl
  obtain ⟨-, -, -, -, e4, e5⟩ := idx_facts1 t
  refine ⟨t, Gen.flush1_2 t, ?_⟩
  show i ∈ ((View.whole main_v48).slice (win1_2.rect t)).set
  rw [View.set_slice_whole, Rect.mem_set_unit]
  intro a
  match a with
  | ⟨0, _⟩ =>
    show win1_2.index t 0 * 2000 ≤ (i 0).val ∧ (i 0).val < win1_2.index t 0 * 2000 + 2000
    rw [e4, htv]; omega
  | ⟨1, _⟩ =>
    show win1_2.index t 1 * 16 ≤ (i 1).val ∧ (i 1).val < win1_2.index t 1 * 16 + 16
    rw [e5]; omega

/-- After the region the output array is the matrix product of the two input arrays as the region found them. -/
theorem region1_value (V : (c : Dev nD) → (b : Ref sig .tc) → Buf (Elt Ideal) ((c : Thread nD τ).loc b)) (c : Dev nD) :
    (Gen.dat1 (F := Ideal) V c).arrAt 2 cfg1.N = Cert.Gcn.mm 100000 16 16 (V c main_v47) (V c main_arg3) :=
  (Gen.dat1 (F := Ideal) V c).arrAt_eq_of_cover 2 (Cert.Gcn.mm 100000 16 16 (V c main_v47) (V c main_arg3))
    (fun t _ => flushed1 V c t) cover1

end Cert.KernelIdeal.Regions

end
-- ==== Proof.Region2.lean ====
/-
  The third linear layer as a whole array. The region walks the 100000 rows of its left operand in 50 blocks of
  2000 rows; at each block it multiplies the block by the whole right operand, [16, 7], and writes the
  2000 × 7 product to the same rows of the output. On the extended reals the cast of the left block to its own
  shape and the narrowing of the operands are the identity and the product into a zero accumulator is the exact
  sum, so block t of the output is rows 2000 t … 2000 t + 1999 of the matrix product of the two arrays; the 50
  blocks tile the rows, so after the region the output array IS that product.
-/
import proofs.«178223_j10960756539504_1_alg».proof.Proof.Gen.KernelIdeal.Frame
import proofs.«178223_j10960756539504_1_alg».proof.Proof.MatSpec
import proofs.«178223_j10960756539504_1_alg».proof.Proof.LibDotPlain
import Idealize.ShloMosaic.Lib.Pipeline.Value
import Idealize.ShloMosaic.Lib.ValueIdx
import Idealize.ShloMosaic.PureOps.Ideal.Laws

noncomputable section

open scoped BigOperators

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

/-- The zero offsets of a whole-block access, however they are spelt. -/
theorem hz2 : (![0, 0] : Fin 2 → Nat) = fun _ => 0 := funext fun a => by fin_cases a <;> rfl

/-- The body's product at entry (p, q): the sum over the shared coordinate of the products of the two loaded blocks.
    The left block's cast to its own shape is the identity, and the narrowing of both operands is the identity on the extended reals. -/
theorem pay2_apply (x0 : Vec Ideal S2000x16 .f32) (x1 : Vec Ideal S16x7 .f32) (p : Fin 2000) (q : Fin 7) :
    Gen.k2_pay1 x0 x1 (ix2 p q) = ∑ k : Fin 16, x0 (ix2 p k) * x1 (ix2 k q) := by
  unfold Gen.k2_pay1
  simp only [shapeCast_self]
  exact Cert.LibDotPlain.matmul_zero_plain (N := 2000) (K := 16) (M := 7)
    dot_S2000x16_S16x7_S2000x7_1_0_0_1_n_n rfl rfl
    (by intro i k; unfold DotDims.lhsIdx
        rw [dif_neg (show ¬(0 : Fin S2000x16.rank) ∈ dot_S2000x16_S16x7_S2000x7_1_0_0_1_n_n.lhsBatch by decide),
          dif_pos (show (0 : Fin S2000x16.rank) ∈ dot_S2000x16_S16x7_S2000x7_1_0_0_1_n_n.lhsNonContracting by decide)]
        rfl)
    (fun i k => dot_S2000x16_S16x7_S2000x7_1_0_0_1_n_n.lhsIdx_val_of_single rfl i k)
    (fun i k => dot_S2000x16_S16x7_S2000x7_1_0_0_1_n_n.rhsIdx_val_of_single rfl i k)
    (by intro i k; unfold DotDims.rhsIdx
        rw [dif_neg (show ¬(1 : Fin S16x7.rank) ∈ dot_S2000x16_S16x7_S2000x7_1_0_0_1_n_n.rhsBatch by decide),
          dif_pos (show (1 : Fin S16x7.rank) ∈ dot_S2000x16_S16x7_S2000x7_1_0_0_1_n_n.rhsNonContracting by decide)]
        rfl)
    none x0 x1 p q

/-- Where each window's block sits at grid point t, decided over the 50 points: the left operand's and the
    output's block index is (t, 0), the right operand's is (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at grid point t, read at (p, k), is the array at row 2000 t + p, column k: a block's
    coordinate in its array is the block index times the block's extent plus the coordinate inside the block. -/
theorem lhs_block2 (V : (c : Dev nD) → (b : Ref sig .tc) → Buf (Elt Ideal) ((c : Thread nD τ).loc b)) (c : Dev nD) (t : Fin cfg2.N) (p : Fin 2000) (k : Fin 16) (r : Fin 100000)
    (hr : r.val = t.val * 2000 + p.val) :
    (Gen.iblk2 (F := Ideal) V c 0 t : Vec Ideal S2000x16 .f32) (ix2 p k)
      = (V c main_v65 : S100000x16.Idx → EReal) (ix2 r k) := by
  obtain ⟨e0, e1, -, -, -, -⟩ := idx_facts2 t
  unfold Gen.iblk2
  rw [View.read_apply]
  show V c main_v65 _ = V c main_v65 _
  congr 1
  funext a
  apply Fin.ext
  match a with
  | ⟨0, _⟩ => show win2_0.index t 0 * 2000 + 1 * p.val = r.val; rw [e0, hr]; omega
  | ⟨1, _⟩ => show win2_0.index t 1 * 16 + 1 * k.val = k.val; rw [e1]; omega

/-- The right operand's block is the whole array at every grid point. -/
theorem rhs_block2 (V : (c : Dev nD) → (b : Ref sig .tc) → Buf (Elt Ideal) ((c : Thread nD τ).loc b)) (c : Dev nD) (t : Fin cfg2.N) (k : Fin 16) (q : Fin 7) :
    (Gen.iblk2 (F := Ideal) V c 1 t : Vec Ideal S16x7 .f32) (ix2 k q)
      = (V c main_arg5 : S16x7.Idx → EReal) (ix2 k q) := by
  obtain ⟨-, -, e2, e3, -, -⟩ := idx_facts2 t
  unfold Gen.iblk2
  rw [View.read_apply]
  show V c main_arg5 _ = V c main_arg5 _
  congr 1
  funext a
  apply Fin.ext
  match a with
  | ⟨0, _⟩ => show win2_1.index t 0 * 16 + 1 * k.val = k.val; rw [e2]; omega
  | ⟨1, _⟩ => show win2_1.index t 1 * 7 + 1 * q.val = q.val; rw [e3]; omega

/-- What grid point t writes back is block t of the matrix product of the two arrays as the region found them. -/
theorem flushed2 (V : (c : Dev nD) → (b : Ref sig .tc) → Buf (Elt Ideal) ((c : Thread nD τ).loc b)) (c : Dev nD) (t : Fin cfg2.N) :
    (Gen.dat2 (F := Ideal) V c).flushed 2 t
      = ((cfg2.win 2).blk t).view.read (Elt Ideal) (Cert.Gcn.mm 100000 16 7 (V c main_v65) (V c main_arg5)) := by
  show (cfg2.win 2).cut (grid2.coords t) ((Gen.dat2 V c).after 2 t) = _
  rw [Gen.after2_2]
  unfold Gen.out2_2
  rw [View.canon_unit_zero hz2]
  simp only [View.ld_unit_zero (S := S2000x16) hz2, View.ld_unit_zero (S := S16x7) hz2]
  obtain ⟨-, -, -, -, e4, e5⟩ := idx_facts2 t
  funext y
  obtain ⟨p, q, rfl⟩ : ∃ (p : Fin 2000) (q : Fin 7), y = ix2 p q := ⟨y 0, y 1, eq_ix2 y⟩
  rw [View.read_apply]
  show Gen.k2_pay1 (Gen.iblk2 V c 0 t) (Gen.iblk2 V c 1 t) (ix2 p q)
    = Cert.Gcn.mm 100000 16 7 (V c main_v65) (V c main_arg5) (((cfg2.win 2).blk t).view.emb (ix2 p q))
  have hp : p.val < 2000 := p.isLt
  have ht : t.val < 50 := Nat.lt_of_lt_of_eq t.isLt Gen.N_2
  have hemb : ((cfg2.win 2).blk t).view.emb (ix2 p q)
      = (ix2 (⟨t.val * 2000 + p.val, by omega⟩ : Fin 100000) q : S100000x7.Idx) := by
    funext a
    apply Fin.ext
    match a with
    | ⟨0, _⟩ => show win2_2.index t 0 * 2000 + 1 * p.val = t.val * 2000 + p.val; rw [e4]; omega
    | ⟨1, _⟩ => show win2_2.index t 1 * 7 + 1 * q.val = q.val; rw [e5]; omega
  rw [hemb, Cert.Gcn.mm_apply, pay2_apply]
  refine Finset.sum_congr rfl fun k _ => ?_
  rw [lhs_block2 V c t p k ⟨t.val * 2000 + p.val, by omega⟩ rfl, rhs_block2 V c t k q]

/-- Row r of the output lies in the block of grid point r / 2000, and every point writes its block back: the 50
    blocks tile the array. -/
theorem cover2 (i : S100000x7.Idx) :
    ∃ t : Fin cfg2.N, (cfg2.win 2).flush t = true ∧ i ∈ ((cfg2.win 2).blk t).view.set := by
  have hi0 : (i 0).val < 100000 := (i 0).isLt
  have hi1 : (i 1).val < 7 := (i 1).isLt
  have hN : cfg2.N = 50 := Gen.N_2
  let t : Fin cfg2.N := ⟨(i 0).val / 2000, by rw [hN]; omega⟩
  have htv : t.val = (i 0).val / 2000 := rfl
  obtain ⟨-, -, -, -, e4, e5⟩ := idx_facts2 t
  refine ⟨t, Gen.flush2_2 t, ?_⟩
  show i ∈ ((View.whole main_v66).slice (win2_2.rect t)).set
  rw [View.set_slice_whole, Rect.mem_set_unit]
  intro a
  match a with
  | ⟨0, _⟩ =>
    show win2_2.index t 0 * 2000 ≤ (i 0).val ∧ (i 0).val < win2_2.index t 0 * 2000 + 2000
    rw [e4, htv]; omega
  | ⟨1, _⟩ =>
    show win2_2.index t 1 * 7 ≤ (i 1).val ∧ (i 1).val < win2_2.index t 1 * 7 + 7
    rw [e5]; omega

/-- After the region the output array is the matrix product of the two input arrays as the region found them. -/
theorem region2_value (V : (c : Dev nD) → (b : Ref sig .tc) → Buf (Elt Ideal) ((c : Thread nD τ).loc b)) (c : Dev nD) :
    (Gen.dat2 (F := Ideal) V c).arrAt 2 cfg2.N = Cert.Gcn.mm 100000 16 7 (V c main_v65) (V c main_arg5) :=
  (Gen.dat2 (F := Ideal) V c).arrAt_eq_of_cover 2 (Cert.Gcn.mm 100000 16 7 (V c main_v65) (V c main_arg5))
    (fun t _ => flushed2 V c t) cover2

end Cert.KernelIdeal.Regions

end
-- ==== Proof.NetSpec.lean ====
/-
  The whole network as ONE function of the eight argument arrays, on the extended reals: three rounds of "multiply
  the node features by a weight matrix, propagate along the edges with the edge coefficients, add the bias", the first
  two followed by the positive part, the last by the logarithm of the row-wise softmax. The edge ends and the edge
  coefficients depend on the edge list alone and are the same in all three rounds.
-/
import proofs.«178223_j10960756539504_1_alg».proof.Proof.Spec

noncomputable section

namespace Cert.Gcn

open Cert.ReferenceIdeal Cert.ReferenceIdeal.Gen Idealize.ShloMosaic Idealize.ShloMosaic.TcCoe

/-- The node features after the first round. -/
def hidden1 (x : (⟨S100000x1433, .f32⟩ : BufTy).Contents (Elt Ideal)) (w1 : (⟨S1433x16, .f32⟩ : BufTy).Contents (Elt Ideal)) (b1 : (⟨S16, .f32⟩ : BufTy).Contents (Elt Ideal)) (e : (⟨S2x3200000, .i32⟩ : BufTy).Contents (Elt Ideal)) :
    (⟨S100000x16, .f32⟩ : BufTy).Contents (Elt Ideal) :=
  relu16 (F := Ideal) (propagate16 (F := Ideal) (mm 100000 1433 16 x w1) (srcEnds (F := Ideal) e) (dstEnds (F := Ideal) e)
    (edgeCoef (F := Ideal) (srcEnds (F := Ideal) e) (dstEnds (F := Ideal) e)) b1)

/-- The node features after the second round. -/
def hidden2 (x : (⟨S100000x1433, .f32⟩ : BufTy).Contents (Elt Ideal)) (w1 : (⟨S1433x16, .f32⟩ : BufTy).Contents (Elt Ideal)) (b1 : (⟨S16, .f32⟩ : BufTy).Contents (Elt Ideal)) (w2 : (⟨S16x16, .f32⟩ : BufTy).Contents (Elt Ideal)) (b2 : (⟨S16, .f32⟩ : BufTy).Contents (Elt Ideal))
    (e : (⟨S2x3200000, .i32⟩ : BufTy).Contents (Elt Ideal)) : (⟨S100000x16, .f32⟩ : BufTy).Contents (Elt Ideal) :=
  relu16 (F := Ideal) (propagate16 (F := Ideal) (mm 100000 16 16 (hidden1 x w1 b1 e) w2) (srcEnds (F := Ideal) e) (dstEnds (F := Ideal) e)
    (edgeCoef (F := Ideal) (srcEnds (F := Ideal) e) (dstEnds (F := Ideal) e)) b2)

/-- The network's result. -/
def net (x : (⟨S100000x1433, .f32⟩ : BufTy).Contents (Elt Ideal)) (w1 : (⟨S1433x16, .f32⟩ : BufTy).Contents (Elt Ideal)) (b1 : (⟨S16, .f32⟩ : BufTy).Contents (Elt Ideal)) (w2 : (⟨S16x16, .f32⟩ : BufTy).Contents (Elt Ideal)) (b2 : (⟨S16, .f32⟩ : BufTy).Contents (Elt Ideal))
    (w3 : (⟨S16x7, .f32⟩ : BufTy).Contents (Elt Ideal)) (b3 : (⟨S7, .f32⟩ : BufTy).Contents (Elt Ideal)) (e : (⟨S2x3200000, .i32⟩ : BufTy).Contents (Elt Ideal)) : (⟨S100000x7, .f32⟩ : BufTy).Contents (Elt Ideal) :=
  logSoftmax (F := Ideal) (propagate7 (F := Ideal) (mm 100000 16 7 (hidden2 x w1 b1 w2 b2 e) w3) (srcEnds (F := Ideal) e) (dstEnds (F := Ideal) e)
    (edgeCoef (F := Ideal) (srcEnds (F := Ideal) e) (dstEnds (F := Ideal) e)) b3)

end Cert.Gcn

end
-- ==== Proof.KernelValue.lean ====
/-
  The kernel program's result as the network's function of the argument arrays.

  The buffer contents at each boundary of the run are followed from the launch memory to the return: the first stretch
  of host operations leaves the edge ends and the edge coefficients (functions of the edge list); each region leaves
  in its output array the matrix product of its two input arrays; each later stretch propagates, adds the bias and
  takes the positive part, or at the end the logarithm of the softmax. A buffer that a stretch or a region does not
  write keeps its contents, so the arguments, the edge ends and the edge coefficients are read at every boundary as what
  they were when first computed.
-/
import proofs.«178223_j10960756539504_1_alg».proof.Proof.Gen.KernelIdeal.Frame
import proofs.«178223_j10960756539504_1_alg».proof.Proof.KernelStages
import proofs.«178223_j10960756539504_1_alg».proof.Proof.Region0
import proofs.«178223_j10960756539504_1_alg».proof.Proof.Region1
import proofs.«178223_j10960756539504_1_alg».proof.Proof.Region2
import proofs.«178223_j10960756539504_1_alg».proof.Proof.NetSpec

noncomputable section

namespace Cert.KernelIdeal.Result

open Cert.KernelIdeal Cert.KernelIdeal.Gen
open Idealize.ShloMosaic Idealize.ShloMosaic.TcCoe Idealize.SL.Sem Idealize.ShloMosaic.StableHlo
open Cert.Gcn

variable (m : (ℓ : Loc nD τ sig) → Buf (Elt Ideal) ℓ) (ρ : Dev nD → PrngReg) (c : Dev nD)

theorem w3_v3 : W3 m ρ c (Proc.devRef .tc main_v3) = (srcEnds (F := Ideal) (m ((c : Thread nD τ).loc main_arg7))) :=
  Stages.pre_src (W0 m ρ c)
theorem w3_v6 : W3 m ρ c (Proc.devRef .tc main_v6) = (dstEnds (F := Ideal) (m ((c : Thread nD τ).loc main_arg7))) :=
  Stages.pre_dst (W0 m ρ c)
theorem w3_v29 : W3 m ρ c (Proc.devRef .tc main_v29) = (edgeCoef (F := Ideal) (srcEnds (F := Ideal) (m ((c : Thread nD τ).loc main_arg7))) (dstEnds (F := Ideal) (m ((c : Thread nD τ).loc main_arg7)))) :=
  Stages.pre_coef (W0 m ρ c)
theorem w3_arg0 : W3 m ρ c (Proc.devRef .tc main_arg0) = (m ((c : Thread nD τ).loc main_arg0)) :=
  Stages.pre_keep_main_arg0 (W0 m ρ c)
theorem w3_arg1 : W3 m ρ c (Proc.devRef .tc main_arg1) = (m ((c : Thread nD τ).loc main_arg1)) :=
  Stages.pre_keep_main_arg1 (W0 m ρ c)
theorem w3_arg2 : W3 m ρ c (Proc.devRef .tc main_arg2) = (m ((c : Thread nD τ).loc main_arg2)) :=
  Stages.pre_keep_main_arg2 (W0 m ρ c)
theorem w3_arg3 : W3 m ρ c (Proc.devRef .tc main_arg3) = (m ((c : Thread nD τ).loc main_arg3)) :=
  Stages.pre_keep_main_arg3 (W0 m ρ c)
theorem w3_arg4 : W3 m ρ c (Proc.devRef .tc main_arg4) = (m ((c : Thread nD τ).loc main_arg4)) :=
  Stages.pre_keep_main_arg4 (W0 m ρ c)
theorem w3_arg5 : W3 m ρ c (Proc.devRef .tc main_arg5) = (m ((c : Thread nD τ).loc main_arg5)) :=
  Stages.pre_keep_main_arg5 (W0 m ρ c)
theorem w3_arg6 : W3 m ρ c (Proc.devRef .tc main_arg6) = (m ((c : Thread nD τ).loc main_arg6)) :=
  Stages.pre_keep_main_arg6 (W0 m ρ c)
/-- The first region leaves the product of the features and the first weight matrix. -/
theorem w4_v30 : W4 m ρ c (Proc.devRef .tc main_v30) = (mm 100000 1433 16 (m ((c : Thread nD τ).loc main_arg0)) (m ((c : Thread nD τ).loc main_arg1))) :=
  (W4_arr m ρ c 2).trans ((Regions.region0_value (V3 m ρ) c).trans (congrArg₂ (mm 100000 1433 16) (w3_arg0 m ρ c) (w3_arg1 m ρ c)))
theorem w4_v3 : W4 m ρ c (Proc.devRef .tc main_v3) = (srcEnds (F := Ideal) (m ((c : Thread nD τ).loc main_arg7))) :=
  (W4_of_ne m ρ c main_v3 (by decide)).trans (w3_v3 m ρ c)
theorem w4_v6 : W4 m ρ c (Proc.devRef .tc main_v6) = (dstEnds (F := Ideal) (m ((c : Thread nD τ).loc main_arg7))) :=
  (W4_of_ne m ρ c main_v6 (by decide)).trans (w3_v6 m ρ c)
theorem w4_v29 : W4 m ρ c (Proc.devRef .tc main_v29) = (edgeCoef (F := Ideal) (srcEnds (F := Ideal) (m ((c : Thread nD τ).loc main_arg7))) (dstEnds (F := Ideal) (m ((c : Thread nD τ).loc main_arg7)))) :=
  (W4_of_ne m ρ c main_v29 (by decide)).trans (w3_v29 m ρ c)
theorem w4_arg2 : W4 m ρ c (Proc.devRef .tc main_arg2) = (m ((c : Thread nD τ).loc main_arg2)) :=
  (W4_of_ne m ρ c main_arg2 (by decide)).trans (w3_arg2 m ρ c)
theorem w4_arg3 : W4 m ρ c (Proc.devRef .tc main_arg3) = (m ((c : Thread nD τ).loc main_arg3)) :=
  (W4_of_ne m ρ c main_arg3 (by decide)).trans (w3_arg3 m ρ c)
theorem w4_arg4 : W4 m ρ c (Proc.devRef .tc main_arg4) = (m ((c : Thread nD τ).loc main_arg4)) :=
  (W4_of_ne m ρ c main_arg4 (by decide)).trans (w3_arg4 m ρ c)
theorem w4_arg5 : W4 m ρ c (Proc.devRef .tc main_arg5) = (m ((c : Thread nD τ).loc main_arg5)) :=
  (W4_of_ne m ρ c main_arg5 (by decide)).trans (w3_arg5 m ρ c)
theorem w4_arg6 : W4 m ρ c (Proc.devRef .tc main_arg6) = (m ((c : Thread nD τ).loc main_arg6)) :=
  (W4_of_ne m ρ c main_arg6 (by decide)).trans (w3_arg6 m ρ c)
/-- The features after the first round. -/
theorem w6_v47 : W6 m ρ c (Proc.devRef .tc main_v47) = (hidden1 (m ((c : Thread nD τ).loc main_arg0)) (m ((c : Thread nD τ).loc main_arg1)) (m ((c : Thread nD τ).loc main_arg2)) (m ((c : Thread nD τ).loc main_arg7))) :=
  (Stages.mid1_hidden (W4 m ρ c)).trans (by
    rw [w4_v30 m ρ c, w4_v3 m ρ c, w4_v6 m ρ c, w4_v29 m ρ c, w4_arg2 m ρ c]; rfl)
theorem w6_v3 : W6 m ρ c (Proc.devRef .tc main_v3) = (srcEnds (F := Ideal) (m ((c : Thread nD τ).loc main_arg7))) :=
  (Stages.mid1_keep_main_v3 (W4 m ρ c)).trans (w4_v3 m ρ c)
theorem w6_v6 : W6 m ρ c (Proc.devRef .tc main_v6) = (dstEnds (F := Ideal) (m ((c : Thread nD τ).loc main_arg7))) :=
  (Stages.mid1_keep_main_v6 (W4 m ρ c)).trans (w4_v6 m ρ c)
theorem w6_v29 : W6 m ρ c (Proc.devRef .tc main_v29) = (edgeCoef (F := Ideal) (srcEnds (F := Ideal) (m ((c : Thread nD τ).loc main_arg7))) (dstEnds (F := Ideal) (m ((c : Thread nD τ).loc main_arg7)))) :=
  (Stages.mid1_keep_main_v29 (W4 m ρ c)).trans (w4_v29 m ρ c)
theorem w6_arg3 : W6 m ρ c (Proc.devRef .tc main_arg3) = (m ((c : Thread nD τ).loc main_arg3)) :=
  (Stages.mid1_keep_main_arg3 (W4 m ρ c)).trans (w4_arg3 m ρ c)
theorem w6_arg4 : W6 m ρ c (Proc.devRef .tc main_arg4) = (m ((c : Thread nD τ).loc main_arg4)) :=
  (Stages.mid1_keep_main_arg4 (W4 m ρ c)).trans (w4_arg4 m ρ c)
theorem w6_arg5 : W6 m ρ c (Proc.devRef .tc main_arg5) = (m ((c : Thread nD τ).loc main_arg5)) :=
  (Stages.mid1_keep_main_arg5 (W4 m ρ c)).trans (w4_arg5 m ρ c)
theorem w6_arg6 : W6 m ρ c (Proc.devRef .tc main_arg6) = (m ((c : Thread nD τ).loc main_arg6)) :=
  (Stages.mid1_keep_main_arg6 (W4 m ρ c)).trans (w4_arg6 m ρ c)
/-- The second region leaves the product of those features and the second weight matrix. -/
theorem w7_v48 : W7 m ρ c (Proc.devRef .tc main_v48) = (mm 100000 16 16 (hidden1 (m ((c : Thread nD τ).loc main_arg0)) (m ((c : Thread nD τ).loc main_arg1)) (m ((c : Thread nD τ).loc main_arg2)) (m ((c : Thread nD τ).loc main_arg7))) (m ((c : Thread nD τ).loc main_arg3))) :=
  (W7_arr m ρ c 2).trans ((Regions.region1_value (V6 m ρ) c).trans (congrArg₂ (mm 100000 16 16) (w6_v47 m ρ c) (w6_arg3 m ρ c)))
theorem w7_v3 : W7 m ρ c (Proc.devRef .tc main_v3) = (srcEnds (F := Ideal) (m ((c : Thread nD τ).loc main_arg7))) :=
  (W7_of_ne m ρ c main_v3 (by decide)).trans (w6_v3 m ρ c)
theorem w7_v6 : W7 m ρ c (Proc.devRef .tc main_v6) = (dstEnds (F := Ideal) (m ((c : Thread nD τ).loc main_arg7))) :=
  (W7_of_ne m ρ c main_v6 (by decide)).trans (w6_v6 m ρ c)
theorem w7_v29 : W7 m ρ c (Proc.devRef .tc main_v29) = (edgeCoef (F := Ideal) (srcEnds (F := Ideal) (m ((c : Thread nD τ).loc main_arg7))) (dstEnds (F := Ideal) (m ((c : Thread nD τ).loc main_arg7)))) :=
  (W7_of_ne m ρ c main_v29 (by decide)).trans (w6_v29 m ρ c)
theorem w7_arg4 : W7 m ρ c (Proc.devRef .tc main_arg4) = (m ((c : Thread nD τ).loc main_arg4)) :=
  (W7_of_ne m ρ c main_arg4 (by decide)).trans (w6_arg4 m ρ c)
theorem w7_arg5 : W7 m ρ c (Proc.devRef .tc main_arg5) = (m ((c : Thread nD τ).loc main_arg5)) :=
  (W7_of_ne m ρ c main_arg5 (by decide)).trans (w6_arg5 m ρ c)
theorem w7_arg6 : W7 m ρ c (Proc.devRef .tc main_arg6) = (m ((c : Thread nD τ).loc main_arg6)) :=
  (W7_of_ne m ρ c main_arg6 (by decide)).trans (w6_arg6 m ρ c)
/-- The features after the second round. -/
theorem w9_v65 : W9 m ρ c (Proc.devRef .tc main_v65) = (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) :=
  (Stages.mid2_hidden (W7 m ρ c)).trans (by
    rw [w7_v48 m ρ c, w7_v3 m ρ c, w7_v6 m ρ c, w7_v29 m ρ c, w7_arg4 m ρ c]; rfl)
theorem w9_v3 : W9 m ρ c (Proc.devRef .tc main_v3) = (srcEnds (F := Ideal) (m ((c : Thread nD τ).loc main_arg7))) :=
  (Stages.mid2_keep_main_v3 (W7 m ρ c)).trans (w7_v3 m ρ c)
theorem w9_v6 : W9 m ρ c (Proc.devRef .tc main_v6) = (dstEnds (F := Ideal) (m ((c : Thread nD τ).loc main_arg7))) :=
  (Stages.mid2_keep_main_v6 (W7 m ρ c)).trans (w7_v6 m ρ c)
theorem w9_v29 : W9 m ρ c (Proc.devRef .tc main_v29) = (edgeCoef (F := Ideal) (srcEnds (F := Ideal) (m ((c : Thread nD τ).loc main_arg7))) (dstEnds (F := Ideal) (m ((c : Thread nD τ).loc main_arg7)))) :=
  (Stages.mid2_keep_main_v29 (W7 m ρ c)).trans (w7_v29 m ρ c)
theorem w9_arg5 : W9 m ρ c (Proc.devRef .tc main_arg5) = (m ((c : Thread nD τ).loc main_arg5)) :=
  (Stages.mid2_keep_main_arg5 (W7 m ρ c)).trans (w7_arg5 m ρ c)
theorem w9_arg6 : W9 m ρ c (Proc.devRef .tc main_arg6) = (m ((c : Thread nD τ).loc main_arg6)) :=
  (Stages.mid2_keep_main_arg6 (W7 m ρ c)).trans (w7_arg6 m ρ c)
/-- The third region leaves the product of those features and the third weight matrix. -/
theorem w10_v66 : W10 m ρ c (Proc.devRef .tc main_v66) = (mm 100000 16 7 (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) (m ((c : Thread nD τ).loc main_arg5))) :=
  (W10_arr m ρ c 2).trans ((Regions.region2_value (V9 m ρ) c).trans (congrArg₂ (mm 100000 16 7) (w9_v65 m ρ c) (w9_arg5 m ρ c)))
theorem w10_v3 : W10 m ρ c (Proc.devRef .tc main_v3) = (srcEnds (F := Ideal) (m ((c : Thread nD τ).loc main_arg7))) :=
  (W10_of_ne m ρ c main_v3 (by decide)).trans (w9_v3 m ρ c)
theorem w10_v6 : W10 m ρ c (Proc.devRef .tc main_v6) = (dstEnds (F := Ideal) (m ((c : Thread nD τ).loc main_arg7))) :=
  (W10_of_ne m ρ c main_v6 (by decide)).trans (w9_v6 m ρ c)
theorem w10_v29 : W10 m ρ c (Proc.devRef .tc main_v29) = (edgeCoef (F := Ideal) (srcEnds (F := Ideal) (m ((c : Thread nD τ).loc main_arg7))) (dstEnds (F := Ideal) (m ((c : Thread nD τ).loc main_arg7)))) :=
  (W10_of_ne m ρ c main_v29 (by decide)).trans (w9_v29 m ρ c)
theorem w10_arg6 : W10 m ρ c (Proc.devRef .tc main_arg6) = (m ((c : Thread nD τ).loc main_arg6)) :=
  (W10_of_ne m ρ c main_arg6 (by decide)).trans (w9_arg6 m ρ c)
/-- The last propagation's result. -/
theorem w11_v82 : W11 m ρ c (Proc.devRef .tc main_v82) = propagate7 (F := Ideal) (mm 100000 16 7 (hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) (m ((c : Thread nD τ).loc main_arg5))) (srcEnds (F := Ideal) (m ((c : Thread nD τ).loc main_arg7))) (dstEnds (F := Ideal) (m ((c : Thread nD τ).loc main_arg7))) (edgeCoef (F := Ideal) (srcEnds (F := Ideal) (m ((c : Thread nD τ).loc main_arg7))) (dstEnds (F := Ideal) (m ((c : Thread nD τ).loc main_arg7)))) (m ((c : Thread nD τ).loc main_arg6)) :=
  (Stages.tail_logits (W10 m ρ c)).trans (by
    rw [w10_v66 m ρ c, w10_v3 m ρ c, w10_v6 m ρ c, w10_v29 m ρ c, w10_arg6 m ρ c])
/-- THE RESULT: what the last boundary's contents hold at the result buffer is the network's function of the argument arrays. -/
theorem result_eq : W12 m ρ c (Proc.devRef .tc main_v83) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (Stages.tail_result (W11 m ρ c)).trans (by
    rw [w11_v82 m ρ c]; rfl)

end Cert.KernelIdeal.Result

end
-- ==== Proof.LibHostSplit.lean ====
/-
  Cutting a line of host operations into consecutive stretches.

  Running a line of operations is running its first k operations and then the rest from what they leave; so the
  contents after a long line can be read stretch by stretch, each stretch from ANY contents it may find.
-/
import Idealize.ShloMosaic.Lib.StableHlo.Run

noncomputable section

namespace Cert.LibHostSplit

open Idealize.ShloMosaic Idealize.ShloMosaic.StableHlo

variable {sig : RefSig} {τ : Topo} {Val : EltTy → Type}

/-- A line run after another is the two run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line is its first `k` operations, then the rest. -/
theorem after_take_drop (l : List (HloOp τ sig Val)) (k : Nat) (V : Valuation τ sig Val) :
    after l V = after (l.drop k) (after (l.take k) V) := by
  rw [← after_append, List.take_append_drop]

/-- The line from its `a`-th operation on is its next `b` operations, then the line from the `c`-th on, `c = a + b`. -/
theorem after_drop_take (l : List (HloOp τ sig Val)) (a b c : Nat) (h : a + b = c) (V : Valuation τ sig Val) :
    after (l.drop a) V = after (l.drop c) (after ((l.drop a).take b) V) := by
  rw [after_take_drop (l.drop a) b V, List.drop_drop, h]

end Cert.LibHostSplit

end
-- ==== Proof.RefStages.lean ====
/-
  The reference program's line of 121 host operations, cut into consecutive stretches and each stretch read as a
  function of what it finds: the stretch that computes the edge ends and the edge coefficients from the edge list; the
  first contraction; the stretch that propagates its result and takes the positive part; the second contraction; the
  same stretch again; the third contraction; the last propagation; the logarithm of the row-wise softmax. Every buffer
  a stretch does not write keeps its contents.
-/
import proofs.«178223_j10960756539504_1_alg».proof.Proof.RefRun
import proofs.«178223_j10960756539504_1_alg».proof.Proof.Spec
import proofs.«178223_j10960756539504_1_alg».proof.Proof.LibHostJoin
import proofs.«178223_j10960756539504_1_alg».proof.Proof.LibHostSplit

noncomputable section

namespace Cert.ReferenceIdeal.Stages

open Cert.ReferenceIdeal Cert.ReferenceIdeal.Gen Cert.ReferenceIdeal.ValueP
open Idealize.ShloMosaic Idealize.ShloMosaic.TcCoe Idealize.SL.Sem Idealize.ShloMosaic.StableHlo
open Cert.LibHostJoin Cert.LibHostSplit Cert.Gcn

variable {F : FTy → Type} [FloatOps F] (Vl : Valuation τ sig (Elt F))

/-- The line is its eight stretches run one after the other. -/
theorem ops_stretches : StableHlo.after (ops (F := F)) Vl
    = StableHlo.after ((ops (F := F)).drop 106) (StableHlo.after (((ops (F := F)).drop 87).take 19)
        (StableHlo.after (((ops (F := F)).drop 86).take 1) (StableHlo.after (((ops (F := F)).drop 64).take 22)
          (StableHlo.after (((ops (F := F)).drop 63).take 1) (StableHlo.after (((ops (F := F)).drop 41).take 22)
            (StableHlo.after (((ops (F := F)).drop 40).take 1) (StableHlo.after ((ops (F := F)).take 40) Vl))))))) := by
  rw [after_take_drop (ops (F := F)) 40 Vl, after_drop_take (ops (F := F)) 40 1 41 rfl, after_drop_take (ops (F := F)) 41 22 63 rfl,
    after_drop_take (ops (F := F)) 63 1 64 rfl, after_drop_take (ops (F := F)) 64 22 86 rfl, after_drop_take (ops (F := F)) 86 1 87 rfl,
    after_drop_take (ops (F := F)) 87 19 106 rfl]

/-! ## The edge ends and the edge coefficients -/

theorem pre_src : StableHlo.after ((ops (F := F)).take 40) Vl (Proc.devRef .tc main_v3) = srcEnds (F := F) (Vl (Proc.devRef .tc main_arg7)) := by
  simp only [ops, List.drop_succ_cons, List.drop_zero, List.take_succ_cons, List.take_zero]
  host_read
  rfl

theorem pre_dst : StableHlo.after ((ops (F := F)).take 40) Vl (Proc.devRef .tc main_v6) = dstEnds (F := F) (Vl (Proc.devRef .tc main_arg7)) := by
  simp only [ops, List.drop_succ_cons, List.drop_zero, List.take_succ_cons, List.take_zero]
  host_read
  rfl

theorem pre_coef : StableHlo.after ((ops (F := F)).take 40) Vl (Proc.devRef .tc main_v29)
    = edgeCoef (F := F) (srcEnds (F := F) (Vl (Proc.devRef .tc main_arg7))) (dstEnds (F := F) (Vl (Proc.devRef .tc main_arg7))) := by
  simp only [ops, List.drop_succ_cons, List.drop_zero, List.take_succ_cons, List.take_zero]
  host_read
  rfl

theorem pre_keep_main_arg0 : StableHlo.after ((ops (F := F)).take 40) Vl (Proc.devRef .tc main_arg0) = Vl (Proc.devRef .tc main_arg0) := by
  simp only [ops, List.drop_succ_cons, List.drop_zero, List.take_succ_cons, List.take_zero]
  host_read
theorem pre_keep_main_arg1 : StableHlo.after ((ops (F := F)).take 40) Vl (Proc.devRef .tc main_arg1) = Vl (Proc.devRef .tc main_arg1) := by
  simp only [ops, List.drop_succ_cons, List.drop_zero, List.take_succ_cons, List.take_zero]
  host_read
theorem pre_keep_main_arg2 : StableHlo.after ((ops (F := F)).take 40) Vl (Proc.devRef .tc main_arg2) = Vl (Proc.devRef .tc main_arg2) := by
  simp only [ops, List.drop_succ_cons, List.drop_zero, List.take_succ_cons, List.take_zero]
  host_read
theorem pre_keep_main_arg3 : StableHlo.after ((ops (F := F)).take 40) Vl (Proc.devRef .tc main_arg3) = Vl (Proc.devRef .tc main_arg3) := by
  simp only [ops, List.drop_succ_cons, List.drop_zero, List.take_succ_cons, List.take_zero]
  host_read
theorem pre_keep_main_arg4 : StableHlo.after ((ops (F := F)).take 40) Vl (Proc.devRef .tc main_arg4) = Vl (Proc.devRef .tc main_arg4) := by
  simp only [ops, List.drop_succ_cons, List.drop_zero, List.take_succ_cons, List.take_zero]
  host_read
theorem pre_keep_main_arg5 : StableHlo.after ((ops (F := F)).take 40) Vl (Proc.devRef .tc main_arg5) = Vl (Proc.devRef .tc main_arg5) := by
  simp only [ops, List.drop_succ_cons, List.drop_zero, List.take_succ_cons, List.take_zero]
  host_read
theorem pre_keep_main_arg6 : StableHlo.after ((ops (F := F)).take 40) Vl (Proc.devRef .tc main_arg6) = Vl (Proc.devRef .tc main_arg6) := by
  simp only [ops, List.drop_succ_cons, List.drop_zero, List.take_succ_cons, List.take_zero]
  host_read

/-! ## The first contraction -/

theorem dot0_out : StableHlo.after (((ops (F := F)).drop 40).take 1) Vl (Proc.devRef .tc main_v30)
    = Host.dotGeneral (F := F) dot_S100000x1433_S1433x16_S100000x16_1_0_0_1_n_n none (Vl (Proc.devRef .tc main_arg0)) (Vl (Proc.devRef .tc main_arg1)) := by
  simp only [ops, List.drop_succ_cons, List.drop_zero, List.take_succ_cons, List.take_zero]
  host_read

theorem dot0_keep_main_v3 : StableHlo.after (((ops (F := F)).drop 40).take 1) Vl (Proc.devRef .tc main_v3) = Vl (Proc.devRef .tc main_v3) := by
  simp only [ops, List.drop_succ_cons, List.drop_zero, List.take_succ_cons, List.take_zero]
  host_read
theorem dot0_keep_main_v6 : StableHlo.after (((ops (F := F)).drop 40).take 1) Vl (Proc.devRef .tc main_v6) = Vl (Proc.devRef .tc main_v6) := by
  simp only [ops, List.drop_succ_cons, List.drop_zero, List.take_succ_cons, List.take_zero]
  host_read
theorem dot0_keep_main_v29 : StableHlo.after (((ops (F := F)).drop 40).take 1) Vl (Proc.devRef .tc main_v29) = Vl (Proc.devRef .tc main_v29) := by
  simp only [ops, List.drop_succ_cons, List.drop_zero, List.take_succ_cons, List.take_zero]
  host_read
theorem dot0_keep_main_arg2 : StableHlo.after (((ops (F := F)).drop 40).take 1) Vl (Proc.devRef .tc main_arg2) = Vl (Proc.devRef .tc main_arg2) := by
  simp only [ops, List.drop_succ_cons, List.drop_zero, List.take_succ_cons, List.take_zero]
  host_read
theorem dot0_keep_main_arg3 : StableHlo.after (((ops (F := F)).drop 40).take 1) Vl (Proc.devRef .tc main_arg3) = Vl (Proc.devRef .tc main_arg3) := by
  simp only [ops, List.drop_succ_cons, List.drop_zero, List.take_succ_cons, List.take_zero]
  host_read
theorem dot0_keep_main_arg4 : StableHlo.after (((ops (F := F)).drop 40).take 1) Vl (Proc.devRef .tc main_arg4) = Vl (Proc.devRef .tc main_arg4) := by
  simp only [ops, List.drop_succ_cons, List.drop_zero, List.take_succ_cons, List.take_zero]
  host_read
theorem dot0_keep_main_arg5 : StableHlo.after (((ops (F := F)).drop 40).take 1) Vl (Proc.devRef .tc main_arg5) = Vl (Proc.devRef .tc main_arg5) := by
  simp only [ops, List.drop_succ_cons, List.drop_zero, List.take_succ_cons, List.take_zero]
  host_read
theorem dot0_keep_main_arg6 : StableHlo.after (((ops (F := F)).drop 40).take 1) Vl (Proc.devRef .tc main_arg6) = Vl (Proc.devRef .tc main_arg6) := by
  simp only [ops, List.drop_succ_cons, List.drop_zero, List.take_succ_cons, List.take_zero]
  host_read

/-! ## Propagate, positive part -/

theorem mid1_hidden : StableHlo.after (((ops (F := F)).drop 41).take 22) Vl (Proc.devRef .tc main_v47)
    = relu16 (F := F) (propagate16 (F := F) (Vl (Proc.devRef .tc main_v30)) (Vl (Proc.devRef .tc main_v3)) (Vl (Proc.devRef .tc main_v6)) (Vl (Proc.devRef .tc main_v29)) (Vl (Proc.devRef .tc main_arg2))) := by
  simp only [ops, List.drop_succ_cons, List.drop_zero, List.take_succ_cons, List.take_zero]
  host_read
  rfl

theorem mid1_keep_main_v3 : StableHlo.after (((ops (F := F)).drop 41).take 22) Vl (Proc.devRef .tc main_v3) = Vl (Proc.devRef .tc main_v3) := by
  simp only [ops, List.drop_succ_cons, List.drop_zero, List.take_succ_cons, List.take_zero]
  host_read
theorem mid1_keep_main_v6 : StableHlo.after (((ops (F := F)).drop 41).take 22) Vl (Proc.devRef .tc main_v6) = Vl (Proc.devRef .tc main_v6) := by
  simp only [ops, List.drop_succ_cons, List.drop_zero, List.take_succ_cons, List.take_zero]
  host_read
theorem mid1_keep_main_v29 : StableHlo.after (((ops (F := F)).drop 41).take 22) Vl (Proc.devRef .tc main_v29) = Vl (Proc.devRef .tc main_v29) := by
  simp only [ops, List.drop_succ_cons, List.drop_zero, List.take_succ_cons, List.take_zero]
  host_read
theorem mid1_keep_main_arg3 : StableHlo.after (((ops (F := F)).drop 41).take 22) Vl (Proc.devRef .tc main_arg3) = Vl (Proc.devRef .tc main_arg3) := by
  simp only [ops, List.drop_succ_cons, List.drop_zero, List.take_succ_cons, List.take_zero]
  host_read
theorem mid1_keep_main_arg4 : StableHlo.after (((ops (F := F)).drop 41).take 22) Vl (Proc.devRef .tc main_arg4) = Vl (Proc.devRef .tc main_arg4) := by
  simp only [ops, List.drop_succ_cons, List.drop_zero, List.take_succ_cons, List.take_zero]
  host_read
theorem mid1_keep_main_arg5 : StableHlo.after (((ops (F := F)).drop 41).take 22) Vl (Proc.devRef .tc main_arg5) = Vl (Proc.devRef .tc main_arg5) := by
  simp only [ops, List.drop_succ_cons, List.drop_zero, List.take_succ_cons, List.take_zero]
  host_read
theorem mid1_keep_main_arg6 : StableHlo.after (((ops (F := F)).drop 41).take 22) Vl (Proc.devRef .tc main_arg6) = Vl (Proc.devRef .tc main_arg6) := by
  simp only [ops, List.drop_succ_cons, List.drop_zero, List.take_succ_cons, List.take_zero]
  host_read

/-! ## The second contraction -/

theorem dot1_out : StableHlo.after (((ops (F := F)).drop 63).take 1) Vl (Proc.devRef .tc main_v48)
    = Host.dotGeneral (F := F) dot_S100000x16_S16x16_S100000x16_1_0_0_1_n_n none (Vl (Proc.devRef .tc main_v47)) (Vl (Proc.devRef .tc main_arg3)) := by
  simp only [ops, List.drop_succ_cons, List.drop_zero, List.take_succ_cons, List.take_zero]
  host_read

theorem dot1_keep_main_v3 : StableHlo.after (((ops (F := F)).drop 63).take 1) Vl (Proc.devRef .tc main_v3) = Vl (Proc.devRef .tc main_v3) := by
  simp only [ops, List.drop_succ_cons, List.drop_zero, List.take_succ_cons, List.take_zero]
  host_read
theorem dot1_keep_main_v6 : StableHlo.after (((ops (F := F)).drop 63).take 1) Vl (Proc.devRef .tc main_v6) = Vl (Proc.devRef .tc main_v6) := by
  simp only [ops, List.drop_succ_cons, List.drop_zero, List.take_succ_cons, List.take_zero]
  host_read
theorem dot1_keep_main_v29 : StableHlo.after (((ops (F := F)).drop 63).take 1) Vl (Proc.devRef .tc main_v29) = Vl (Proc.devRef .tc main_v29) := by
  simp only [ops, List.drop_succ_cons, List.drop_zero, List.take_succ_cons, List.take_zero]
  host_read
theorem dot1_keep_main_arg4 : StableHlo.after (((ops (F := F)).drop 63).take 1) Vl (Proc.devRef .tc main_arg4) = Vl (Proc.devRef .tc main_arg4) := by
  simp only [ops, List.drop_succ_cons, List.drop_zero, List.take_succ_cons, List.take_zero]
  host_read
theorem dot1_keep_main_arg5 : StableHlo.after (((ops (F := F)).drop 63).take 1) Vl (Proc.devRef .tc main_arg5) = Vl (Proc.devRef .tc main_arg5) := by
  simp only [ops, List.drop_succ_cons, List.drop_zero, List.take_succ_cons, List.take_zero]
  host_read
theorem dot1_keep_main_arg6 : StableHlo.after (((ops (F := F)).drop 63).take 1) Vl (Proc.devRef .tc main_arg6) = Vl (Proc.devRef .tc main_arg6) := by
  simp only [ops, List.drop_succ_cons, List.drop_zero, List.take_succ_cons, List.take_zero]
  host_read

/-! ## Propagate, positive part, again -/

theorem mid2_hidden : StableHlo.after (((ops (F := F)).drop 64).take 22) Vl (Proc.devRef .tc main_v65)
    = relu16 (F := F) (propagate16 (F := F) (Vl (Proc.devRef .tc main_v48)) (Vl (Proc.devRef .tc main_v3)) (Vl (Proc.devRef .tc main_v6)) (Vl (Proc.devRef .tc main_v29)) (Vl (Proc.devRef .tc main_arg4))) := by
  simp only [ops, List.drop_succ_cons, List.drop_zero, List.take_succ_cons, List.take_zero]
  host_read
  rfl

theorem mid2_keep_main_v3 : StableHlo.after (((ops (F := F)).drop 64).take 22) Vl (Proc.devRef .tc main_v3) = Vl (Proc.devRef .tc main_v3) := by
  simp only [ops, List.drop_succ_cons, List.drop_zero, List.take_succ_cons, List.take_zero]
  host_read
theorem mid2_keep_main_v6 : StableHlo.after (((ops (F := F)).drop 64).take 22) Vl (Proc.devRef .tc main_v6) = Vl (Proc.devRef .tc main_v6) := by
  simp only [ops, List.drop_succ_cons, List.drop_zero, List.take_succ_cons, List.take_zero]
  host_read
theorem mid2_keep_main_v29 : StableHlo.after (((ops (F := F)).drop 64).take 22) Vl (Proc.devRef .tc main_v29) = Vl (Proc.devRef .tc main_v29) := by
  simp only [ops, List.drop_succ_cons, List.drop_zero, List.take_succ_cons, List.take_zero]
  host_read
theorem mid2_keep_main_arg5 : StableHlo.after (((ops (F := F)).drop 64).take 22) Vl (Proc.devRef .tc main_arg5) = Vl (Proc.devRef .tc main_arg5) := by
  simp only [ops, List.drop_succ_cons, List.drop_zero, List.take_succ_cons, List.take_zero]
  host_read
theorem mid2_keep_main_arg6 : StableHlo.after (((ops (F := F)).drop 64).take 22) Vl (Proc.devRef .tc main_arg6) = Vl (Proc.devRef .tc main_arg6) := by
  simp only [ops, List.drop_succ_cons, List.drop_zero, List.take_succ_cons, List.take_zero]
  host_read

/-! ## The third contraction -/

theorem dot2_out : StableHlo.after (((ops (F := F)).drop 86).take 1) Vl (Proc.devRef .tc main_v66)
    = Host.dotGeneral (F := F) dot_S100000x16_S16x7_S100000x7_1_0_0_1_n_n none (Vl (Proc.devRef .tc main_v65)) (Vl (Proc.devRef .tc main_arg5)) := by
  simp only [ops, List.drop_succ_cons, List.drop_zero, List.take_succ_cons, List.take_zero]
  host_read

theorem dot2_keep_main_v3 : StableHlo.after (((ops (F := F)).drop 86).take 1) Vl (Proc.devRef .tc main_v3) = Vl (Proc.devRef .tc main_v3) := by
  simp only [ops, List.drop_succ_cons, List.drop_zero, List.take_succ_cons, List.take_zero]
  host_read
theorem dot2_keep_main_v6 : StableHlo.after (((ops (F := F)).drop 86).take 1) Vl (Proc.devRef .tc main_v6) = Vl (Proc.devRef .tc main_v6) := by
  simp only [ops, List.drop_succ_cons, List.drop_zero, List.take_succ_cons, List.take_zero]
  host_read
theorem dot2_keep_main_v29 : StableHlo.after (((ops (F := F)).drop 86).take 1) Vl (Proc.devRef .tc main_v29) = Vl (Proc.devRef .tc main_v29) := by
  simp only [ops, List.drop_succ_cons, List.drop_zero, List.take_succ_cons, List.take_zero]
  host_read
theorem dot2_keep_main_arg6 : StableHlo.after (((ops (F := F)).drop 86).take 1) Vl (Proc.devRef .tc main_arg6) = Vl (Proc.devRef .tc main_arg6) := by
  simp only [ops, List.drop_succ_cons, List.drop_zero, List.take_succ_cons, List.take_zero]
  host_read

/-! ## The last propagation, and the logarithm of the softmax -/

theorem tail_logits : StableHlo.after (((ops (F := F)).drop 87).take 19) Vl (Proc.devRef .tc main_v82)
    = propagate7 (F := F) (Vl (Proc.devRef .tc main_v66)) (Vl (Proc.devRef .tc main_v3)) (Vl (Proc.devRef .tc main_v6)) (Vl (Proc.devRef .tc main_v29)) (Vl (Proc.devRef .tc main_arg6)) := by
  simp only [ops, List.drop_succ_cons, List.drop_zero, List.take_succ_cons, List.take_zero]
  host_read
  rfl

theorem tail_result : StableHlo.after ((ops (F := F)).drop 106) Vl (Proc.devRef .tc main_v83) = logSoftmax (F := F) (Vl (Proc.devRef .tc main_v82)) := by
  simp only [ops, List.drop_succ_cons, List.drop_zero, List.take_succ_cons, List.take_zero]
  host_read
  rfl

end Cert.ReferenceIdeal.Stages

end
-- ==== Proof.RefDots.lean ====
/-
  The reference's three contractions as entrywise product sums.

  On the extended reals the host's `dot_general` with one contracted axis is, at entry (p, q), the sum over the
  contraction's index set of the products of its operands' entries; for a plain [N, K] × [K, M] product that index
  set is the K values of the shared coordinate, and the sum is the matrix product's entry.
-/
import proofs.«178223_j10960756539504_1_alg».proof.ReferenceIdeal
import proofs.«178223_j10960756539504_1_alg».proof.Proof.Gen.ReferenceIdeal
import proofs.«178223_j10960756539504_1_alg».proof.Proof.MatSpec
import proofs.«178223_j10960756539504_1_alg».proof.Proof.LibDotPlain
import Idealize.ShloMosaic.PureOps.Ideal.Laws
import Idealize.ShloMosaic.Lib.ValueIdx

noncomputable section

namespace Cert.ReferenceIdeal.Dots

open Cert.ReferenceIdeal Cert.ReferenceIdeal.Gen Idealize.ShloMosaic Idealize.ShloMosaic.TcCoe Idealize.ShloMosaic.ValueIdx
open Cert.Gcn

/-- The reference's 0 contraction is the entrywise product sum. -/
theorem dot0_eq (l : FVec Ideal S100000x1433 .f32) (r : FVec Ideal S1433x16 .f32) :
    Host.dotGeneral (F := Ideal) dot_S100000x1433_S1433x16_S100000x16_1_0_0_1_n_n none l r = mm 100000 1433 16 l r := by
  funext i
  obtain ⟨p, q, rfl⟩ : ∃ (p : Fin 100000) (q : Fin 16), i = ix2 p q := ⟨i 0, i 1, eq_ix2 i⟩
  simp only [Host.dotGeneral]
  rw [Ideal.dotGeneral_apply]
  exact Cert.LibDotPlain.sum_contr_plain (N := 100000) (K := 1433) (M := 16) dot_S100000x1433_S1433x16_S100000x16_1_0_0_1_n_n rfl rfl
    (fun i k => by
      unfold DotDims.lhsIdx
      rw [dif_neg (show ¬(0 : Fin S100000x1433.rank) ∈ dot_S100000x1433_S1433x16_S100000x16_1_0_0_1_n_n.lhsBatch by decide),
        dif_pos (show (0 : Fin S100000x1433.rank) ∈ dot_S100000x1433_S1433x16_S100000x16_1_0_0_1_n_n.lhsNonContracting by decide)]
      rfl)
    (fun i k => dot_S100000x1433_S1433x16_S100000x16_1_0_0_1_n_n.lhsIdx_val_of_single rfl i k)
    (fun i k => dot_S100000x1433_S1433x16_S100000x16_1_0_0_1_n_n.rhsIdx_val_of_single rfl i k)
    (fun i k => by
      unfold DotDims.rhsIdx
      rw [dif_neg (show ¬(1 : Fin S1433x16.rank) ∈ dot_S100000x1433_S1433x16_S100000x16_1_0_0_1_n_n.rhsBatch by decide),
        dif_pos (show (1 : Fin S1433x16.rank) ∈ dot_S100000x1433_S1433x16_S100000x16_1_0_0_1_n_n.rhsNonContracting by decide)]
      rfl)
    l r p q

/-- The reference's 1 contraction is the entrywise product sum. -/
theorem dot1_eq (l : FVec Ideal S100000x16 .f32) (r : FVec Ideal S16x16 .f32) :
    Host.dotGeneral (F := Ideal) dot_S100000x16_S16x16_S100000x16_1_0_0_1_n_n none l r = mm 100000 16 16 l r := by
  funext i
  obtain ⟨p, q, rfl⟩ : ∃ (p : Fin 100000) (q : Fin 16), i = ix2 p q := ⟨i 0, i 1, eq_ix2 i⟩
  simp only [Host.dotGeneral]
  rw [Ideal.dotGeneral_apply]
  exact Cert.LibDotPlain.sum_contr_plain (N := 100000) (K := 16) (M := 16) dot_S100000x16_S16x16_S100000x16_1_0_0_1_n_n rfl rfl
    (fun i k => by
      unfold DotDims.lhsIdx
      rw [dif_neg (show ¬(0 : Fin S100000x16.rank) ∈ dot_S100000x16_S16x16_S100000x16_1_0_0_1_n_n.lhsBatch by decide),
        dif_pos (show (0 : Fin S100000x16.rank) ∈ dot_S100000x16_S16x16_S100000x16_1_0_0_1_n_n.lhsNonContracting by decide)]
      rfl)
    (fun i k => dot_S100000x16_S16x16_S100000x16_1_0_0_1_n_n.lhsIdx_val_of_single rfl i k)
    (fun i k => dot_S100000x16_S16x16_S100000x16_1_0_0_1_n_n.rhsIdx_val_of_single rfl i k)
    (fun i k => by
      unfold DotDims.rhsIdx
      rw [dif_neg (show ¬(1 : Fin S16x16.rank) ∈ dot_S100000x16_S16x16_S100000x16_1_0_0_1_n_n.rhsBatch by decide),
        dif_pos (show (1 : Fin S16x16.rank) ∈ dot_S100000x16_S16x16_S100000x16_1_0_0_1_n_n.rhsNonContracting by decide)]
      rfl)
    l r p q

/-- The reference's 2 contraction is the entrywise product sum. -/
theorem dot2_eq (l : FVec Ideal S100000x16 .f32) (r : FVec Ideal S16x7 .f32) :
    Host.dotGeneral (F := Ideal) dot_S100000x16_S16x7_S100000x7_1_0_0_1_n_n none l r = mm 100000 16 7 l r := by
  funext i
  obtain ⟨p, q, rfl⟩ : ∃ (p : Fin 100000) (q : Fin 7), i = ix2 p q := ⟨i 0, i 1, eq_ix2 i⟩
  simp only [Host.dotGeneral]
  rw [Ideal.dotGeneral_apply]
  exact Cert.LibDotPlain.sum_contr_plain (N := 100000) (K := 16) (M := 7) dot_S100000x16_S16x7_S100000x7_1_0_0_1_n_n rfl rfl
    (fun i k => by
      unfold DotDims.lhsIdx
      rw [dif_neg (show ¬(0 : Fin S100000x16.rank) ∈ dot_S100000x16_S16x7_S100000x7_1_0_0_1_n_n.lhsBatch by decide),
        dif_pos (show (0 : Fin S100000x16.rank) ∈ dot_S100000x16_S16x7_S100000x7_1_0_0_1_n_n.lhsNonContracting by decide)]
      rfl)
    (fun i k => dot_S100000x16_S16x7_S100000x7_1_0_0_1_n_n.lhsIdx_val_of_single rfl i k)
    (fun i k => dot_S100000x16_S16x7_S100000x7_1_0_0_1_n_n.rhsIdx_val_of_single rfl i k)
    (fun i k => by
      unfold DotDims.rhsIdx
      rw [dif_neg (show ¬(1 : Fin S16x7.rank) ∈ dot_S100000x16_S16x7_S100000x7_1_0_0_1_n_n.rhsBatch by decide),
        dif_pos (show (1 : Fin S16x7.rank) ∈ dot_S100000x16_S16x7_S100000x7_1_0_0_1_n_n.rhsNonContracting by decide)]
      rfl)
    l r p q

end Cert.ReferenceIdeal.Dots

end
-- ==== Proof.RefValue.lean ====
/-
  The reference program's result as the network's function of the argument arrays.

  The line of host operations is read stretch by stretch from the launch contents: the edge ends and the edge
  coefficients, then three times a contraction followed by a propagation, the first two with the positive part, and the
  logarithm of the softmax at the end. The three contractions are the matrix products of the network's definition.
-/
import proofs.«178223_j10960756539504_1_alg».proof.Proof.RefStages
import proofs.«178223_j10960756539504_1_alg».proof.Proof.RefDots
import proofs.«178223_j10960756539504_1_alg».proof.Proof.NetSpec

noncomputable section

namespace Cert.ReferenceIdeal.Result

open Cert.ReferenceIdeal Cert.ReferenceIdeal.Gen Cert.ReferenceIdeal.ValueP
open Idealize.ShloMosaic Idealize.ShloMosaic.TcCoe Idealize.SL.Sem Idealize.ShloMosaic.StableHlo
open Cert.Gcn

/-- From ANY contents `V`: the result buffer after the whole line, as the network's function of what `V` holds at the
    argument buffers. -/
theorem result_of (V : Valuation τ sig (Elt Ideal)) :
    StableHlo.after (ops (F := Ideal)) V (Proc.devRef .tc main_v83)
      = net (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  rw [Stages.ops_stretches V]
  rw [Stages.tail_result, Stages.tail_logits]
  rw [Stages.dot2_out, Stages.dot2_keep_main_v3, Stages.dot2_keep_main_v6, Stages.dot2_keep_main_v29, Stages.dot2_keep_main_arg6]
  rw [Stages.mid2_hidden, Stages.mid2_keep_main_v3, Stages.mid2_keep_main_v6, Stages.mid2_keep_main_v29, Stages.mid2_keep_main_arg5,
    Stages.mid2_keep_main_arg6]
  rw [Stages.dot1_out, Stages.dot1_keep_main_v3, Stages.dot1_keep_main_v6, Stages.dot1_keep_main_v29, Stages.dot1_keep_main_arg4,
    Stages.dot1_keep_main_arg5, Stages.dot1_keep_main_arg6]
  rw [Stages.mid1_hidden, Stages.mid1_keep_main_v3, Stages.mid1_keep_main_v6, Stages.mid1_keep_main_v29, Stages.mid1_keep_main_arg3,
    Stages.mid1_keep_main_arg4, Stages.mid1_keep_main_arg5, Stages.mid1_keep_main_arg6]
  rw [Stages.dot0_out, Stages.dot0_keep_main_v3, Stages.dot0_keep_main_v6, Stages.dot0_keep_main_v29, Stages.dot0_keep_main_arg2,
    Stages.dot0_keep_main_arg3, Stages.dot0_keep_main_arg4, Stages.dot0_keep_main_arg5, Stages.dot0_keep_main_arg6]
  rw [Stages.pre_src, Stages.pre_dst, Stages.pre_coef, Stages.pre_keep_main_arg0, Stages.pre_keep_main_arg1, Stages.pre_keep_main_arg2,
    Stages.pre_keep_main_arg3, Stages.pre_keep_main_arg4, Stages.pre_keep_main_arg5, Stages.pre_keep_main_arg6]
  rw [Dots.dot0_eq, Dots.dot1_eq, Dots.dot2_eq]
  rfl

/-- THE RESULT from the launch memory. -/
theorem result_eq (m : (ℓ : Loc nD τ sig) → Buf (Elt Ideal) ℓ) (c : Dev nD) :
    StableHlo.after (ops (F := Ideal)) (launchContents m c) (Proc.devRef .tc main_v83)
      = net (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) :=
  result_of (launchContents m c)

end Cert.ReferenceIdeal.Result

end
-- ==== Proof.lean ====
/-
  The certificate of a three-layer graph convolution network: a kernel program whose three linear layers are row-tiled
  matrix-product regions (operands rounded to a narrower format on the way into the matrix unit, accumulation from
  zero), against a reference that computes each layer by one contraction. Everything else — the self loops, the
  degrees, the symmetric normalisation, the gather of source rows, the scatter-add at the destinations, the bias, the
  positive part and the final logarithm of the softmax — both programs compute by the same host operations in the
  same order.

  On the extended reals a change of float format is the identity and a matrix-unit product into a zero accumulator is
  the exact sum of products, so each region leaves in its output array the matrix product of its two input arrays
  (block by block: point t of the grid writes rows 2000t … 2000t + 1999, and the fifty blocks cover the array), which
  is what the reference's contraction computes. Both programs' results are therefore ONE function of the eight argument
  arrays (`Cert.Gcn.net`); no law beyond re-indexing a finite sum is used, and the precondition is never opened.
  The ideal pass rewrote nothing, so the preservation claim is trivial; the three frames are the generated frames of
  the two kernel programs and the reference's run with its result dropped.
-/
import proofs.«178223_j10960756539504_1_alg».proof.Defs
import proofs.«178223_j10960756539504_1_alg».proof.Proof.Gen.Kernel
import proofs.«178223_j10960756539504_1_alg».proof.Proof.Gen.Kernel.Frame
import proofs.«178223_j10960756539504_1_alg».proof.Proof.Gen.KernelIdeal
import proofs.«178223_j10960756539504_1_alg».proof.Proof.Gen.KernelIdeal.Frame
import proofs.«178223_j10960756539504_1_alg».proof.Proof.Gen.ReferenceIdeal
import proofs.«178223_j10960756539504_1_alg».proof.Proof.Gen.Pre_finite_inputs
import proofs.«178223_j10960756539504_1_alg».proof.Proof.KernelRun
import proofs.«178223_j10960756539504_1_alg».proof.Proof.KernelValue
import proofs.«178223_j10960756539504_1_alg».proof.Proof.RefRun
import proofs.«178223_j10960756539504_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the result buffer at the network's function of the argument arrays, and the argument arrays
    agree. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Result.result_eq m ρ c), (h c).2⟩)
      (Cert.KernelIdeal.RunV.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7⟩ := hagree c
    rw [Cert.ReferenceIdeal.Result.result_eq m' c, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
